-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128x128 .f32) (main_arg11 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S5000x128 : Shape := ⟨2, ![5000, 128]⟩
abbrev S1x128 : Shape := ⟨2, ![1, 128]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S64x1 : Shape := ⟨2, ![64, 1]⟩

abbrev nBuf : Space → Nat
  | .hbm => 89
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S50000x128, .bf16⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .bf16⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .bf16⟩
  | .hbm, ⟨39, _⟩ => ⟨S50000x128, .bf16⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .bf16⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .bf16⟩
  | .hbm, ⟨56, _⟩ => ⟨S50000x128, .bf16⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .bf16⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .bf16⟩
  | .hbm, ⟨73, _⟩ => ⟨S50000x128, .f32⟩
  | .hbm, ⟨74, _⟩ => ⟨S_, .f32⟩
  | .hbm, ⟨75, _⟩ => ⟨S64x128, .f32⟩
  | .hbm, ⟨76, _⟩ => ⟨S50000x1, .i32⟩
  | .hbm, ⟨77, _⟩ => ⟨S64x128, .f32⟩
  | .hbm, ⟨78, _⟩ => ⟨S_, .f32⟩
  | .hbm, ⟨79, _⟩ => ⟨S50000x1, .f32⟩
  | .hbm, ⟨80, _⟩ => ⟨S_, .f32⟩
  | .hbm, ⟨81, _⟩ => ⟨S64x1, .f32⟩
  | .hbm, ⟨82, _⟩ => ⟨S50000x1, .i32⟩
  | .hbm, ⟨83, _⟩ => ⟨S64x1, .f32⟩
  | .hbm, ⟨84, _⟩ => ⟨S_, .f32⟩
  | .hbm, ⟨85, _⟩ => ⟨S64x1, .f32⟩
  | .hbm, ⟨86, _⟩ => ⟨S64x1, .f32⟩
  | .hbm, ⟨87, _⟩ => ⟨S64x128, .f32⟩
  | .hbm, ⟨88, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .bf16⟩
  | .local _ .vmem, ⟨29, _⟩ => ⟨S5000x128, .bf16⟩
  | .local _ .vmem, ⟨30, _⟩ => ⟨S5000x128, .bf16⟩
  | .local _ .vmem, ⟨31, _⟩ => ⟨S5000x128, .bf16⟩
  | .local _ .vmem, ⟨32, _⟩ => ⟨S128x128, .f32⟩
  | .local _ .vmem, ⟨33, _⟩ => ⟨S128x128, .f32⟩
  | .local _ .vmem, ⟨34, _⟩ => ⟨S128, .f32⟩
  | .local _ .vmem, ⟨35, _⟩ => ⟨S5000x128, .bf16⟩
  | .local _ .vmem, ⟨36, _⟩ => ⟨S5000x128, .bf16⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .bf16⟩
  | .local _ .vmem, ⟨44, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  reducesTo_S128_S_d0 : S128.ReducesTo [0] S_
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S5000x128_S5000x128 : S5000x128.ShapeCasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .bf16 = 32 ∨ (Rect.block (s := S50000x128) S5000x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .bf16 = 32 ∨ (Rect.block (s := S50000x128) S5000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .bf16 = 32 ∨ (Rect.block (s := S50000x128) S5000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .bf16 = 32 ∨ (Rect.block (s := S50000x128) S5000x128.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .bf16 = 32 ∨ (Rect.block (s := S50000x128) S5000x128.size (cc5_transform_2 i) (hinb5_2 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v21_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v34_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S64x128, .f32⟩
  | .hbm, ⟨90, _⟩ => ⟨S50000x1, .i32⟩
  | .hbm, ⟨91, _⟩ => ⟨S64x128, .f32⟩
  | .hbm, ⟨92, _⟩ => ⟨S_, .f32⟩
  | .hbm, ⟨93, _⟩ => ⟨S50000x1, .f32⟩
  | .hbm, ⟨94, _⟩ => ⟨S_, .f32⟩
  | .hbm, ⟨95, _⟩ => ⟨S64x1, .f32⟩
  | .hbm, ⟨96, _⟩ => ⟨S50000x1, .i32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S64x128, .f32⟩
  | .hbm, ⟨102, _⟩ => ⟨S64x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  reducesTo_S128_S_d0 : S128.ReducesTo [0] S_
  bcast_S_S128 : S_.BroadcastsInDim S128 (![] : Fin 0 → Fin S128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.KernelRun.lean ====
/-
  The idealized kernel program's run with its two result arrays named.

  The program is eleven segments: five stretches of host operations and six pallas_calls.  Its buffers' contents at
  each boundary are a fold from the launch memory: a host stretch applies its operations to the contents before it, a
  pallas_call replaces its windows' arrays by what its write-backs leave and keeps every other buffer.  Every execution
  terminates with every buffer at the last boundary's contents; in particular the two results hold that fold at their
  own buffers, and the arguments are unchanged.
-/
import proofs.«174086_j18305150615818_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's run theorem for a program of several regions are found by unifying its
-- conclusion with this statement, which takes unfolding plain definitions in a metavariable's type
set_option backward.isDefEq.respectTransparency.types false in
/-- Every weakly fair execution terminates, nothing faulting, with the pooled result and the column shares at the last
    boundary's contents of their buffers, and the arguments as launched. -/
theorem run_results : θ_run defs (onTc (τ := τ) (main (F := F))) ⟨m, fun _ => 0, ρ⟩ (fun r => ∀ c : Dev nD,
      r.2.mem ((c.tc : Thread nD τ).loc main_v58) = W11 m ρ c (Proc.devRef .tc main_v58)
      ∧ r.2.mem ((c.tc : Thread nD τ).loc main_v7) = W11 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v58 (by decide)), h c _ (mem_uc main_v7 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunValue

end
-- ==== Proof.LibRowScatter.lean ====
/-
  Two host operations on whole rows of a two-dimensional table, read at one entry.

  (1) Gathering rows. For a table of N rows and C columns and a list of E row numbers, the gathered array has E rows
      and C columns; its entry (e, q) is the table's entry (row named by e, q), where the row number is read as a
      signed integer and clamped into [0, N - 1].

  (2) Accumulating rows. For a base array of N rows and C columns, a list of E row numbers and E update rows of C
      columns, the accumulated array's entry (r, q) is the base entry plus the sum, over the positions e whose row
      number (read as a signed integer) is exactly r, of the update entry (e, q). A row number outside [0, N - 1]
      names no row and contributes nothing.
-/
import Idealize.ShloMosaic.PureOps.Ideal
import Idealize.ShloMosaic.Lib.ValueIdx

noncomputable section

open scoped BigOperators

namespace Cert.LibRowScatter
open Idealize.ShloMosaic Idealize.ShloMosaic.ValueIdx

/-- dimension numbers of x[rows]: offset_dims [1], collapsed_slice_dims [0], start_index_map [0], index_vector_dim 1, slice_sizes [1, C] -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- dimension numbers of the row scatter: update_window_dims [1], inserted_window_dims [0], scatter_dims_to_operand_dims [0], index_vector_dim 1 -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row that edge e's start index names: read as a signed integer and clamped into [0, N − 1]. -/
def rowAt {E w : Nat} (N : Nat) (hN : 0 < N) (idx : IVec ⟨2, ![E, 1]⟩ w) (e : Fin E) : Fin N :=
  ⟨min (idx (ix2 e (0 : Fin 1))).toInt.toNat (N - 1), by omega⟩

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (rowAt N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hne : ∀ h : (1 : Fin 2) = 0, False := fun h => Nat.one_ne_zero (congrArg Fin.val h)
    have hnm : (1 : Fin 2) ∉ (rowGatherDims N E C wf).startIndexMap := fun h => hne (List.mem_singleton.mp h)
    have hk : (1 : Fin 2) ∈ (rowGatherDims N E C wf).sKept :=
      (GatherDims.mem_sKept _ _).mpr ⟨fun h => hne (List.mem_singleton.mp h), List.not_mem_nil⟩
    unfold GatherDims.start GatherDims.offCoord
    rw [dif_neg hnm, dif_pos hk]
    simp only [Nat.zero_add]
    rfl

/-! ## The accumulating scatter of rows -/

section Scatter
variable {N E C w : Nat} (wf : ScatterDims.WF ⟨2, ![N, C]⟩ ⟨2, ![E, 1]⟩ ⟨2, ![E, C]⟩ [1] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the row axis the window of update (e, q') starts at e's row number, read as a signed integer. -/
theorem scatter_start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start_col (idx : IVec ⟨2, ![E, 1]⟩ w) (e : Fin E) (q' : Fin C) :
    (rowScatterDims N E C wf).start (ix2 e q') idx 1 = 0 := by
  unfold ScatterDims.start
  rw [dif_neg (fun h => Nat.one_ne_zero (congrArg Fin.val (List.mem_singleton.mp h)))]

/-- The row axis is inserted: the window coordinate there is 0. -/
theorem scatter_window_row (e : Fin E) (q' : Fin C) : (rowScatterDims N E C wf).window (ix2 e q') 0 = 0 := by
  unfold ScatterDims.window
  rw [dif_neg (fun h => ((mem_kept _ _).mp h) (List.mem_singleton.mpr rfl))]

/-- On the column axis the window coordinate is the update's column. -/
theorem scatter_window_col (e : Fin E) (q' : Fin C) : (rowScatterDims N E C wf).window (ix2 e q') 1 = q'.val := by
  unfold ScatterDims.window
  rw [dif_pos ((mem_kept _ _).mpr (fun h => Nat.one_ne_zero (congrArg Fin.val (List.mem_singleton.mp h))))]
  rfl

/-- Update (e, q') lands at entry (r, q) exactly when e's row number is r and q' = q. -/
theorem resultIdx_eq_some_iff (idx : IVec ⟨2, ![E, 1]⟩ w) (e : Fin E) (q' : Fin C) (r : Fin N) (q : Fin C) :
    (rowScatterDims N E C wf).resultIdx? (ix2 e q') idx = some (ix2 r q)
      ↔ (idx (ix2 e (0 : Fin 1))).toInt = (r.val : ℤ) ∧ q' = q := by
  have hs0 := scatter_start_row wf idx e q'
  have hs1 := scatter_start_col wf idx e q'
  have hw0 := scatter_window_row wf e q'
  have hw1 := scatter_window_col wf e q'
  unfold ScatterDims.resultIdx?
  constructor
  · intro h
    split at h
    · rename_i hall
      have hf := Option.some.inj h
      have h0 : ((rowScatterDims N E C wf).start (ix2 e q') idx 0
          + ((rowScatterDims N E C wf).window (ix2 e q') 0 : ℤ)).toNat = r.val :=
        congrArg (fun f => (f 0).val) hf
      have h1 : ((rowScatterDims N E C wf).start (ix2 e q') idx 1
          + ((rowScatterDims N E C wf).window (ix2 e q') 1 : ℤ)).toNat = q.val :=
        congrArg (fun f => (f 1).val) hf
      have ha0 := (hall 0).1
      rw [hs0, hw0] at h0 ha0
      rw [hs1, hw1] at h1
      refine ⟨by omega, Fin.ext (by omega)⟩
    · exact absurd h (by simp)
  · rintro ⟨hI, rfl⟩
    have hall : ∀ a, 0 ≤ (rowScatterDims N E C wf).start (ix2 e q') idx a + ((rowScatterDims N E C wf).window (ix2 e q') a : ℤ)
        ∧ (rowScatterDims N E C wf).start (ix2 e q') idx a + ((rowScatterDims N E C wf).window (ix2 e q') a : ℤ)
          < (((⟨2, ![N, C]⟩ : Shape).size a : ℕ) : ℤ) := by
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < ((N : ℕ) : ℤ)
        rw [hs0, hw0, hI]
        have := r.isLt
        omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < ((C : ℕ) : ℤ)
        rw [hs1, hw1]
        have := q'.isLt
        omega
    rw [dif_pos hall]
    congr 1
    funext a
    refine Fin.ext ?_
    match a with
    | ⟨0, _⟩ =>
      show ((rowScatterDims N E C wf).start (ix2 e q') idx 0 + ((rowScatterDims N E C wf).window (ix2 e q') 0 : ℤ)).toNat = r.val
      rw [hs0, hw0, hI]
      omega
    | ⟨1, _⟩ =>
      show ((rowScatterDims N E C wf).start (ix2 e q') idx 1 + ((rowScatterDims N E C wf).window (ix2 e q') 1 : ℤ)).toNat = q'.val
      rw [hs1, hw1]
      omega

end Scatter

/-- THE ROW SCATTER READ AT (r, q): the base entry plus the sum, over the positions e whose row number is r, of the
    update entry (e, q). -/
theorem scatterAdd_rows_apply {N E C w : Nat}
    (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (upd : (⟨2, ![E, C]⟩ : Shape).Idx → EReal) (r : Fin N) (q : Fin C) :
    Ideal.hostScatterAdd (rowScatterDims N E C wf) x0 idx upd (ix2 r q)
      = x0 (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl (fun e _ => ?_)
  rw [Finset.sum_eq_single q]
  · by_cases h : (idx (ix2 e (0 : Fin 1))).toInt = (r.val : ℤ)
    · rw [if_pos h, if_pos ((resultIdx_eq_some_iff wf idx e q r q).mpr ⟨h, rfl⟩)]
    · rw [if_neg h, if_neg (fun hh => h ((resultIdx_eq_some_iff wf idx e q r q).mp hh).1)]
  · intro q' _ hne
    rw [if_neg (fun hh => hne ((resultIdx_eq_some_iff wf idx e q' r q).mp hh).2)]
  · intro h
    exact absurd (Finset.mem_univ q) h

end Cert.LibRowScatter
-- ==== Proof.LibERealFinite.lean ====
/-
  General facts about sums and minima of extended reals that are real numbers.
-/
import Mathlib.Data.EReal.Inv
import Mathlib.Algebra.BigOperators.Group.Finset.Basic
import Mathlib.Data.Finset.Fold

namespace LibERealFinite

open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_finset_sum]; exact Finset.sum_congr rfl h

/-- The coercion of the reals into the extended reals commutes with binary minima. -/
theorem coe_min (a b : ℝ) : ((min a b : ℝ) : EReal) = min (a : EReal) (b : EReal) := by
  rcases le_total a b with h | h
  · rw [min_eq_left h, min_eq_left (EReal.coe_le_coe_iff.mpr h)]
  · rw [min_eq_right h, min_eq_right (EReal.coe_le_coe_iff.mpr h)]

/-- The coercion of the reals into the extended reals commutes with binary maxima. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of extended reals each of which is a real number is a real number. -/
theorem exists_sum_eq_coe {ι : Type*} (s : Finset ι) (F : ι → EReal) (h : ∀ i ∈ s, ∃ r : ℝ, F i = (r : EReal)) :
    ∃ r : ℝ, ∑ i ∈ s, F i = (r : EReal) := by
  classical
  induction s using Finset.induction_on with
  | empty => exact ⟨0, by simp⟩
  | insert a s ha ih =>
    obtain ⟨r, hr⟩ := h a (Finset.mem_insert_self a s)
    obtain ⟨r', hr'⟩ := ih (fun i hi => h i (Finset.mem_insert_of_mem hi))
    exact ⟨r + r', by rw [Finset.sum_insert ha, hr, hr', EReal.coe_add]⟩

/-- A map that preserves order preserves binary minima. -/
theorem map_min_of_monotone {g : EReal → EReal} (hg : Monotone g) (a b : EReal) : g (min a b) = min (g a) (g b) := by
  rcases le_total a b with h | h
  · rw [min_eq_left h, min_eq_left (hg h)]
  · rw [min_eq_right h, min_eq_right (hg h)]

/-- A monotone map that fixes `⊤` commutes with the minimum (folded from `⊤`) of a finite family. -/
theorem map_fold_min {ι : Type*} (s : Finset ι) {g : EReal → EReal} (hg : Monotone g) (htop : g ⊤ = ⊤)
    (f : ι → EReal) : g (s.fold min ⊤ f) = s.fold min ⊤ (fun i => g (f i)) := by
  have := Finset.fold_hom (op := (min : EReal → EReal → EReal)) (op' := min) (s := s) (b := ⊤) (f := f)
    (m := g) (map_min_of_monotone hg)
  rw [htop] at this
  exact this.symm

/-- The minimum, folded from `⊤`, of a NONEMPTY finite family of real numbers is a real number. -/
theorem exists_fold_min_eq_coe {ι : Type*} (s : Finset ι) (hs : s.Nonempty) (f : ι → ℝ) :
    ∃ r : ℝ, s.fold min ⊤ (fun i => (f i : EReal)) = (r : EReal) := by
  classical
  induction hs using Finset.Nonempty.cons_induction with
  | singleton a => exact ⟨f a, by simp⟩
  | cons a s ha hs ih =>
    obtain ⟨r, hr⟩ := ih
    refine ⟨min (f a) r, ?_⟩
    rw [Finset.fold_cons, hr, coe_min]

end LibERealFinite
-- ==== Proof.LibHostReal.lean ====
/-
  Real-valuedness through the host's indexing operations, at the extended-real reading of floats.

  An extended real is "a real number" when it is the image of some `r : ℝ` (neither infinity). Three facts:
  a gather only re-indexes its operand, so any property of every operand entry holds of every gathered
  entry; an accumulating scatter of real-valued updates into a real-valued operand is real-valued, since each
  entry is the operand's entry plus a FINITE sum of update entries, and the reals are closed under finite sums;
  and a real number divided by an extended real that is at least one is a real number (the divisor is not
  zero, and the inverse of `+∞` is zero). A broadcast, like a gather, only re-indexes.
-/
import Idealize.ShloMosaic.PureOps.Ideal
import Idealize.ShloMosaic.PureOps.Contract
import Idealize.ShloMosaic.PureOps.ShapeOps

noncomputable section

namespace LibHostReal

open Idealize.ShloMosaic

/-- The sum of two real numbers, read as extended reals, is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of real numbers, read as extended reals, is a real number. -/
theorem sum_real {ι : Type} (S : Finset ι) (f : ι → EReal) (hf : ∀ j ∈ S, ∃ r : ℝ, f j = (r : EReal)) :
    ∃ r : ℝ, ∑ j ∈ S, f j = (r : EReal) :=
  Finset.sum_induction f (fun x => ∃ r : ℝ, x = (r : EReal)) (fun _ _ hx hy => add_real hx hy)
    ⟨0, EReal.coe_zero.symm⟩ hf

/-- A gather reads its operand at a computed index: a property of every operand entry is a property of
    every gathered entry. -/
theorem gather_pred {α : Type} {s si t : Shape} {w : Nat} (d : GatherDims s si t) (P : α → Prop)
    (x : s.Idx → α) (idx : IVec si w) (hx : ∀ i, P (x i)) : ∀ k, P (Host.gather d x idx k) :=
  fun k => hx (d.operandIdx k idx)

/-- A gather of a real-valued array is real-valued. -/
theorem gather_real {s si t : Shape} {w : Nat} (d : GatherDims s si t) (x : s.Idx → EReal) (idx : IVec si w)
    (hx : ∀ i, ∃ r : ℝ, x i = (r : EReal)) : ∀ k, ∃ r : ℝ, Host.gather d x idx k = (r : EReal) :=
  gather_pred d (fun v => ∃ r : ℝ, v = (r : EReal)) x idx hx

/-- A broadcast reads its operand at a computed index: a property of every operand entry is a property of
    every entry of the broadcast. -/
theorem broadcastInDim_pred {α : Type} {s t : Shape} (dims : Fin s.rank → Fin t.rank)
    (h : s.BroadcastsInDim t dims) (P : α → Prop) (x : s.Idx → α) (hx : ∀ i, P (x i)) :
    ∀ k, P (broadcastInDim t dims h x k) :=
  fun _ => hx _

/-- An accumulating scatter is, entry by entry, the operand's entry plus the sum of the updates landing there;
    with a real-valued operand and real-valued updates every entry is a real number. -/
theorem hostScatterAdd_real {s si su : Shape} {w : Nat} (d : ScatterDims s si su) (x0 : s.Idx → EReal)
    (idx : IVec si w) (upd : su.Idx → EReal) (hx : ∀ i, ∃ r : ℝ, x0 i = (r : EReal))
    (hu : ∀ j, ∃ r : ℝ, upd j = (r : EReal)) : ∀ k, ∃ r : ℝ, Ideal.hostScatterAdd d x0 idx upd k = (r : EReal) :=
  fun k => add_real (hx k) (sum_real _ _ fun j _ => hu j)

/-- The host's accumulating float scatter of real-valued updates into a real-valued operand is real-valued. -/
theorem scatterAdd_real {φ : FTy} {s si su : Shape} {w : Nat} (d : ScatterDims s si su) (x0 : FVec Ideal s φ)
    (idx : IVec si w) (upd : FVec Ideal su φ) (hx : ∀ i, ∃ r : ℝ, x0 i = (r : EReal))
    (hu : ∀ j, ∃ r : ℝ, upd j = (r : EReal)) :
    ∀ k, ∃ r : ℝ, Host.scatterAdd (F := Ideal) d x0 idx upd k = (r : EReal) :=
  hostScatterAdd_real d x0 idx upd hx hu

/-- A real number divided by an extended real that is at least one is a real number: the divisor is not zero;
    if it is `+∞` its inverse is zero, otherwise it is a nonzero real and the quotient is the real quotient. -/
theorem div_real_of_one_le (a : ℝ) {y : EReal} (hy : 1 ≤ y) : ∃ r : ℝ, Ideal.div (a : EReal) y = (r : EReal) := by
  have hy0 : y ≠ 0 := fun h => by rw [h] at hy; exact absurd hy (by norm_num)
  rw [Ideal.div, if_neg hy0]
  induction y using EReal.rec with
  | bot => exact absurd (lt_of_lt_of_le (EReal.bot_lt_coe 1) (by exact_mod_cast hy)) (lt_irrefl _)
  | top => exact ⟨0, by rw [EReal.inv_top, mul_zero, EReal.coe_zero]⟩
  | coe b => exact ⟨a * b⁻¹, by rw [EReal.coe_mul, EReal.coe_inv]⟩

/-- The larger of an extended real and one is at least one. -/
theorem one_le_max_one (x : EReal) : 1 ≤ max x 1 := le_max_right x 1

end LibHostReal

end
-- ==== Proof.GraphConvLaw.lean ====
/-
  One graph-convolution layer over the extended reals, in the two arrangements the two programs use, and the law
  that joins them.

  A layer takes node features h (N rows, C columns), two lists of E row numbers (the edges' sources and targets),
  two C×C weight matrices and a bias row.  Writing agg(x) for "gather the source rows of x, then add each gathered
  row into its target row" (a row number outside the table is clamped on the way in and dropped on the way out),
  the kernel's arrangement multiplies first,
      max( agg(h·Wrel) + (h·Wroot + b), 0 ),
  and the reference's aggregates first,
      max( (agg(h)·Wrel + h·Wroot) + b, 0 ).
  Entry (r, q) of agg(h·Wrel) is a sum over edges of sums over k of h(src e, k)·Wrel(k, q); entry (r, q) of
  agg(h)·Wrel is the sum over k of (a sum over edges of h(src e, k))·Wrel(k, q).  Over the REAL numbers these are
  one double sum in two orders (a factor moved across a finite sum, and the two sums exchanged).  Over the extended
  reals that step needs every h entry and every Wrel entry to be a real number: with an infinity among them a
  product with a zero sum and a sum of products may differ.  The regrouping of the three summands needs nothing:
  addition of extended reals is associative.  A layer of real-valued data is real-valued, so the law applies layer
  after layer.
-/
import Idealize.ShloMosaic.PureOps.Ideal
import Idealize.ShloMosaic.Lib.ValueIdx
import proofs.«174086_j18305150615818_2_alg».proof.Proof.LibRowScatter
import proofs.«174086_j18305150615818_2_alg».proof.Proof.LibERealFinite
import proofs.«174086_j18305150615818_2_alg».proof.Proof.LibHostReal

noncomputable section

open scoped BigOperators

namespace Cert.GraphConv

open Idealize.ShloMosaic Idealize.ShloMosaic.ValueIdx Cert.LibRowScatter

/-- Every entry is a real number (neither infinity). -/
def IsReal {ι : Type} (f : ι → EReal) : Prop := ∀ i, ∃ r : ℝ, f i = (r : EReal)

/-! ## A factor moved across a guarded double sum -/

/-- Over real data: the sum over the selected e of (∑ k, a e k · b k) is ∑ k, (the sum over the selected e of
    a e k) · b k. -/
theorem edge_sum_mul {ι κ : Type} [Fintype ι] [Fintype κ] (P : ι → Prop) [DecidablePred P]
    (a : ι → κ → ℝ) (b : κ → ℝ) :
    (∑ e, if P e then ∑ k, ((a e k : ℝ) : EReal) * ((b k : ℝ) : EReal) else 0)
      = ∑ k, (∑ e, if P e then ((a e k : ℝ) : EReal) else 0) * ((b k : ℝ) : EReal) := by
  have hL : ∀ e, (if P e then ∑ k, ((a e k : ℝ) : EReal) * ((b k : ℝ) : EReal) else (0 : EReal))
      = ((if P e then ∑ k, a e k * b k else 0 : ℝ) : EReal) := by
    intro e
    split_ifs
    · rw [LibERealFinite.coe_finset_sum]
      exact Finset.sum_congr rfl (fun k _ => (EReal.coe_mul _ _).symm)
    · exact EReal.coe_zero.symm
  have hR : ∀ k, (∑ e, if P e then ((a e k : ℝ) : EReal) else 0) * ((b k : ℝ) : EReal)
      = (((∑ e, if P e then a e k else 0) * b k : ℝ) : EReal) := by
    intro k
    rw [EReal.coe_mul, LibERealFinite.coe_finset_sum]
    congr 1
    refine Finset.sum_congr rfl (fun e _ => ?_)
    split_ifs
    · rfl
    · exact EReal.coe_zero.symm
  rw [Finset.sum_congr rfl (fun e _ => hL e), Finset.sum_congr rfl (fun k _ => hR k),
    ← LibERealFinite.coe_finset_sum, ← LibERealFinite.coe_finset_sum]
  congr 1
  simp only [Finset.sum_mul]
  rw [Finset.sum_comm]
  refine Finset.sum_congr rfl (fun e _ => ?_)
  split_ifs
  · rfl
  · simp

section Layer
variable {N E C : ℕ} (hN : 0 < N)
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)

/-- The matrix product h·w at an entry: entry (r, q) is ∑ k, h (r, k) · w (k, q). -/
def mm (h : (⟨2, ![N, C]⟩ : Shape).Idx → EReal) (w : (⟨2, ![C, C]⟩ : Shape).Idx → EReal) :
    (⟨2, ![N, C]⟩ : Shape).Idx → EReal :=
  fun i => ∑ k : Fin C, h (ix2 (n0 := N) (n1 := C) (i 0) k) * w (ix2 (n0 := C) (n1 := C) k (i 1))

theorem mm_apply (h : (⟨2, ![N, C]⟩ : Shape).Idx → EReal) (w : (⟨2, ![C, C]⟩ : Shape).Idx → EReal)
    (r : Fin N) (q : Fin C) : mm h w (ix2 r q) = ∑ k : Fin C, h (ix2 r k) * w (ix2 k q) := rfl

/-- The edge aggregate: the source rows of x gathered, each added into its target row of a table of zeros. -/
def agg (x : (⟨2, ![N, C]⟩ : Shape).Idx → EReal) (si di : IVec ⟨2, ![E, 1]⟩ 32) :
    (⟨2, ![N, C]⟩ : Shape).Idx → EReal :=
  Ideal.hostScatterAdd (rowScatterDims N E C wfs) (fun _ => 0) di (Host.gather (rowGatherDims N E C wfg) x si)

/-- Entry (r, q) of the aggregate: the sum, over the edges whose target is r, of x (source row, q). -/
theorem agg_apply (x : (⟨2, ![N, C]⟩ : Shape).Idx → EReal) (si di : IVec ⟨2, ![E, 1]⟩ 32) (r : Fin N) (q : Fin C) :
    agg wfg wfs x si di (ix2 r q)
      = ∑ e : Fin E, if (di (ix2 e (0 : Fin 1))).toInt = (r.val : ℤ) then x (ix2 (rowAt N hN si e) q) else 0 := by
  unfold agg
  rw [scatterAdd_rows_apply wfs, zero_add]
  refine Finset.sum_congr rfl (fun e _ => ?_)
  rw [gather_rows_apply hN wfg]

/-- h·w + b, entry by entry: the bias row added to every row of the product. -/
def affine (h : (⟨2, ![N, C]⟩ : Shape).Idx → EReal) (w : (⟨2, ![C, C]⟩ : Shape).Idx → EReal)
    (b : (⟨1, ![C]⟩ : Shape).Idx → EReal) : (⟨2, ![N, C]⟩ : Shape).Idx → EReal :=
  fun i => mm h w i + b (ix1 (n := C) (i 1))

/-- The larger of a + r and zero, entry by entry. -/
def addRelu {ι : Type} (a r : ι → EReal) : ι → EReal := fun i => max (a i + r i) 0

/-- The kernel's arrangement of a layer. -/
def kLayer (h : (⟨2, ![N, C]⟩ : Shape).Idx → EReal) (si di : IVec ⟨2, ![E, 1]⟩ 32)
    (wrel wroot : (⟨2, ![C, C]⟩ : Shape).Idx → EReal) (b : (⟨1, ![C]⟩ : Shape).Idx → EReal) :
    (⟨2, ![N, C]⟩ : Shape).Idx → EReal :=
  fun i => max (agg wfg wfs (mm h wrel) si di i + (mm h wroot i + b (ix1 (n := C) (i 1)))) 0

/-- The kernel's layer, as its three calls compute it: the rectified sum of the aggregate of h·Wrel and h·Wroot + b. -/
theorem kLayer_def (h : (⟨2, ![N, C]⟩ : Shape).Idx → EReal) (si di : IVec ⟨2, ![E, 1]⟩ 32)
    (wrel wroot : (⟨2, ![C, C]⟩ : Shape).Idx → EReal) (b : (⟨1, ![C]⟩ : Shape).Idx → EReal) :
    addRelu (agg wfg wfs (mm h wrel) si di) (affine h wroot b) = kLayer wfg wfs h si di wrel wroot b := rfl

/-- The reference's arrangement of a layer. -/
def rLayer (h : (⟨2, ![N, C]⟩ : Shape).Idx → EReal) (si di : IVec ⟨2, ![E, 1]⟩ 32)
    (wrel wroot : (⟨2, ![C, C]⟩ : Shape).Idx → EReal) (b : (⟨1, ![C]⟩ : Shape).Idx → EReal) :
    (⟨2, ![N, C]⟩ : Shape).Idx → EReal :=
  fun i => max ((mm (agg wfg wfs h si di) wrel i + mm h wroot i) + b (ix1 (n := C) (i 1))) 0

include hN in
/-- Aggregating after the product is the product after aggregating, for real-valued features and weights. -/
theorem agg_mm (h : (⟨2, ![N, C]⟩ : Shape).Idx → EReal) (si di : IVec ⟨2, ![E, 1]⟩ 32)
    (w : (⟨2, ![C, C]⟩ : Shape).Idx → EReal) (hh : IsReal h) (hw : IsReal w) :
    agg wfg wfs (mm h w) si di = mm (agg wfg wfs h si di) w := by
  choose h' eh using hh
  choose w' ew using hw
  funext i
  obtain ⟨r, q, rfl⟩ : ∃ (r : Fin N) (q : Fin C), i = ix2 r q := ⟨i 0, i 1, eq_ix2 i⟩
  rw [agg_apply hN wfg wfs, mm_apply]
  have e1 : ∀ e : Fin E, mm h w (ix2 (rowAt N hN si e) q)
      = ∑ k : Fin C, ((h' (ix2 (rowAt N hN si e) k) : ℝ) : EReal) * ((w' (ix2 k q) : ℝ) : EReal) := by
    intro e
    rw [mm_apply]
    exact Finset.sum_congr rfl (fun k _ => by rw [eh, ew])
  have e2 : ∀ k : Fin C, agg wfg wfs h si di (ix2 r k) * w (ix2 k q)
      = (∑ e : Fin E, if (di (ix2 e (0 : Fin 1))).toInt = (r.val : ℤ)
          then ((h' (ix2 (rowAt N hN si e) k) : ℝ) : EReal) else 0) * ((w' (ix2 k q) : ℝ) : EReal) := by
    intro k
    rw [agg_apply hN wfg wfs, ew]
    congr 1
    exact Finset.sum_congr rfl (fun e _ => by rw [eh])
  rw [Finset.sum_congr rfl (fun e _ => by rw [e1 e]), Finset.sum_congr rfl (fun k _ => e2 k)]
  exact edge_sum_mul (fun e : Fin E => (di (ix2 e (0 : Fin 1))).toInt = (r.val : ℤ))
    (fun e k => h' (ix2 (rowAt N hN si e) k)) (fun k => w' (ix2 k q))

include hN in
/-- THE LAW: the two arrangements of a layer agree on real-valued features and neighbour weights. -/
theorem kLayer_eq_rLayer (h : (⟨2, ![N, C]⟩ : Shape).Idx → EReal) (si di : IVec ⟨2, ![E, 1]⟩ 32)
    (wrel wroot : (⟨2, ![C, C]⟩ : Shape).Idx → EReal) (b : (⟨1, ![C]⟩ : Shape).Idx → EReal)
    (hh : IsReal h) (hw : IsReal wrel) :
    kLayer wfg wfs h si di wrel wroot b = rLayer wfg wfs h si di wrel wroot b := by
  funext i
  unfold kLayer rLayer
  rw [agg_mm hN wfg wfs h si di wrel hh hw, add_assoc]

/-! ## A layer of real-valued data is real-valued -/

theorem mm_real (h : (⟨2, ![N, C]⟩ : Shape).Idx → EReal) (w : (⟨2, ![C, C]⟩ : Shape).Idx → EReal)
    (hh : IsReal h) (hw : IsReal w) : IsReal (mm h w) := by
  intro i
  refine LibHostReal.sum_real _ _ (fun k _ => ?_)
  obtain ⟨a, ea⟩ := hh (ix2 (n0 := N) (n1 := C) (i 0) k)
  obtain ⟨b, eb⟩ := hw (ix2 (n0 := C) (n1 := C) k (i 1))
  exact ⟨a * b, by rw [ea, eb, EReal.coe_mul]⟩

theorem agg_real (x : (⟨2, ![N, C]⟩ : Shape).Idx → EReal) (si di : IVec ⟨2, ![E, 1]⟩ 32) (hx : IsReal x) :
    IsReal (agg wfg wfs x si di) :=
  LibHostReal.hostScatterAdd_real _ _ _ _ (fun _ => ⟨0, EReal.coe_zero.symm⟩)
    (LibHostReal.gather_real _ x si hx)

theorem max_zero_real {x : EReal} (hx : ∃ r : ℝ, x = (r : EReal)) : ∃ r : ℝ, max x 0 = (r : EReal) := by
  obtain ⟨a, rfl⟩ := hx
  exact ⟨max a 0, by rw [LibERealFinite.coe_max, EReal.coe_zero]⟩

theorem rLayer_real (h : (⟨2, ![N, C]⟩ : Shape).Idx → EReal) (si di : IVec ⟨2, ![E, 1]⟩ 32)
    (wrel wroot : (⟨2, ![C, C]⟩ : Shape).Idx → EReal) (b : (⟨1, ![C]⟩ : Shape).Idx → EReal)
    (hh : IsReal h) (hw : IsReal wrel) (hw' : IsReal wroot) (hb : IsReal b) :
    IsReal (rLayer wfg wfs h si di wrel wroot b) := by
  intro i
  refine max_zero_real (LibHostReal.add_real (LibHostReal.add_real ?_ ?_) (hb _))
  · exact mm_real _ _ (agg_real wfg wfs h si di hh) hw i
  · exact mm_real _ _ hh hw' i

end Layer

end Cert.GraphConv

end
-- ==== Proof.GraphConvNet.lean ====
/-
  Three graph-convolution layers in a row, in the two arrangements, and their equality on real-valued data.

  The first layer's two arrangements agree because the input features and its neighbour weights are real numbers.
  Its output is then real-valued (finite sums, products and a maximum with zero of real numbers), so the second layer's
  arrangements agree on it, and likewise the third's.
-/
import proofs.«174086_j18305150615818_2_alg».proof.Proof.GraphConvLaw

noncomputable section

namespace Cert.GraphConv

open Idealize.ShloMosaic Idealize.ShloMosaic.ValueIdx Cert.LibRowScatter

section Net
variable {N E C : ℕ} (hN : 0 < N)
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)
  (x : (⟨2, ![N, C]⟩ : Shape).Idx → EReal) (si di : IVec ⟨2, ![E, 1]⟩ 32)
  (w1 v1 : (⟨2, ![C, C]⟩ : Shape).Idx → EReal) (b1 : (⟨1, ![C]⟩ : Shape).Idx → EReal)
  (w2 v2 : (⟨2, ![C, C]⟩ : Shape).Idx → EReal) (b2 : (⟨1, ![C]⟩ : Shape).Idx → EReal)
  (w3 v3 : (⟨2, ![C, C]⟩ : Shape).Idx → EReal) (b3 : (⟨1, ![C]⟩ : Shape).Idx → EReal)

/-- Three layers, each in the kernel's arrangement (w = neighbour weights, v = root weights, b = bias). -/
def kNet : (⟨2, ![N, C]⟩ : Shape).Idx → EReal :=
  kLayer wfg wfs (kLayer wfg wfs (kLayer wfg wfs x si di w1 v1 b1) si di w2 v2 b2) si di w3 v3 b3

/-- Three layers, each in the reference's arrangement. -/
def rNet : (⟨2, ![N, C]⟩ : Shape).Idx → EReal :=
  rLayer wfg wfs (rLayer wfg wfs (rLayer wfg wfs x si di w1 v1 b1) si di w2 v2 b2) si di w3 v3 b3

include hN in
/-- On real-valued features, weights and biases the two three-layer networks are one function. -/
theorem kNet_eq_rNet (hx : IsReal x) (hw1 : IsReal w1) (hv1 : IsReal v1) (hb1 : IsReal b1)
    (hw2 : IsReal w2) (hv2 : IsReal v2) (hb2 : IsReal b2) (hw3 : IsReal w3) :
    kNet wfg wfs x si di w1 v1 b1 w2 v2 b2 w3 v3 b3 = rNet wfg wfs x si di w1 v1 b1 w2 v2 b2 w3 v3 b3 := by
  unfold kNet rNet
  have r1 : IsReal (rLayer wfg wfs x si di w1 v1 b1) := rLayer_real wfg wfs x si di w1 v1 b1 hx hw1 hv1 hb1
  have r2 : IsReal (rLayer wfg wfs (rLayer wfg wfs x si di w1 v1 b1) si di w2 v2 b2) :=
    rLayer_real wfg wfs _ si di w2 v2 b2 r1 hw2 hv2 hb2
  rw [kLayer_eq_rLayer hN wfg wfs x si di w1 v1 b1 hx hw1,
    kLayer_eq_rLayer hN wfg wfs _ si di w2 v2 b2 r1 hw2,
    kLayer_eq_rLayer hN wfg wfs _ si di w3 v3 b3 r2 hw3]

end Net

end Cert.GraphConv

end
-- ==== Proof.KernelKeep.lean ====
/-
  Buffers that a stretch of the idealized kernel program leaves alone.

  The program's buffer contents at its eleven boundaries are a fold from the launch memory.  A host stretch changes only
  the buffers its operations write; a pallas_call changes only its output windows' arrays.  So a buffer that the
  segments between two boundaries neither write nor flush holds at the later boundary what it held at the earlier one.
  Here that is read off for the buffers the value proof follows across boundaries: the weight and bias arguments up
  to the call that loads them, the two edge-index rows (computed once, before the first call) up to each stretch that
  gathers with them, the graph-index argument up to the pooling, the column shares up to the return, and each dense
  call's second output across the host stretch that follows it.
-/
import proofs.«174086_j18305150615818_2_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A host stretch keeps a buffer none of its operations writes: the written buffers are walked, each differs from the
    buffer in question. -/
macro "host_keeps" : tactic => `(tactic| (
  refine StableHlo.after_of_forall_not_mem _ _ (List.forall_iff_forall_mem.mp ?_)
  simp only [hostOps0, hostOps1, hostOps3, hostOps5, hostOps6, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

-- one step across each segment, for a buffer named at the use: h = a host stretch, r = a pallas_call
set_option hygiene false in
local macro "h0" b:term:max : term => `((show W1 m ρ c (Proc.devRef .tc $b) = W0 m ρ c (Proc.devRef .tc $b) by host_keeps))
set_option hygiene false in
local macro "r0" b:term:max : term => `(W2_of_ne m ρ c $b (by decide))
set_option hygiene false in
local macro "h1" b:term:max : term => `((show W3 m ρ c (Proc.devRef .tc $b) = W2 m ρ c (Proc.devRef .tc $b) by host_keeps))
set_option hygiene false in
local macro "r1" b:term:max : term => `(W4_of_ne m ρ c $b (by decide))
set_option hygiene false in
local macro "r2" b:term:max : term => `(W5_of_ne m ρ c $b (by decide))
set_option hygiene false in
local macro "h3" b:term:max : term => `((show W6 m ρ c (Proc.devRef .tc $b) = W5 m ρ c (Proc.devRef .tc $b) by host_keeps))
set_option hygiene false in
local macro "r3" b:term:max : term => `(W7_of_ne m ρ c $b (by decide))
set_option hygiene false in
local macro "r4" b:term:max : term => `(W8_of_ne m ρ c $b (by decide))
set_option hygiene false in
local macro "h5" b:term:max : term => `((show W9 m ρ c (Proc.devRef .tc $b) = W8 m ρ c (Proc.devRef .tc $b) by host_keeps))
set_option hygiene false in
local macro "r5" b:term:max : term => `(W10_of_ne m ρ c $b (by decide))
set_option hygiene false in
local macro "h6" b:term:max : term => `((show W11 m ρ c (Proc.devRef .tc $b) = W10 m ρ c (Proc.devRef .tc $b) by host_keeps))

/-! ## The first layer's operands: arguments as launched -/

theorem arg0_at1 : W1 m ρ c (Proc.devRef .tc main_arg0) = m ((c : Thread nD τ).loc main_arg0) := (h0 main_arg0).trans rfl
theorem arg3_at1 : W1 m ρ c (Proc.devRef .tc main_arg3) = m ((c : Thread nD τ).loc main_arg3) := (h0 main_arg3).trans rfl
theorem arg4_at1 : W1 m ρ c (Proc.devRef .tc main_arg4) = m ((c : Thread nD τ).loc main_arg4) := (h0 main_arg4).trans rfl
theorem arg5_at1 : W1 m ρ c (Proc.devRef .tc main_arg5) = m ((c : Thread nD τ).loc main_arg5) := (h0 main_arg5).trans rfl

/-! ## The second layer's weights and bias, when the third call is entered -/

theorem arg6_at4 : W4 m ρ c (Proc.devRef .tc main_arg6) = m ((c : Thread nD τ).loc main_arg6) :=
  (r1 main_arg6).trans <| (h1 main_arg6).trans <| (r0 main_arg6).trans <| (h0 main_arg6).trans rfl
theorem arg7_at4 : W4 m ρ c (Proc.devRef .tc main_arg7) = m ((c : Thread nD τ).loc main_arg7) :=
  (r1 main_arg7).trans <| (h1 main_arg7).trans <| (r0 main_arg7).trans <| (h0 main_arg7).trans rfl
theorem arg8_at4 : W4 m ρ c (Proc.devRef .tc main_arg8) = m ((c : Thread nD τ).loc main_arg8) :=
  (r1 main_arg8).trans <| (h1 main_arg8).trans <| (r0 main_arg8).trans <| (h0 main_arg8).trans rfl

/-! ## The third layer's weights and bias, when the fifth call is entered -/

theorem arg9_at7 : W7 m ρ c (Proc.devRef .tc main_arg9) = m ((c : Thread nD τ).loc main_arg9) :=
  (r3 main_arg9).trans <| (h3 main_arg9).trans <| (r2 main_arg9).trans <| (r1 main_arg9).trans <| (h1 main_arg9).trans <|
    (r0 main_arg9).trans <| (h0 main_arg9).trans rfl
theorem arg10_at7 : W7 m ρ c (Proc.devRef .tc main_arg10) = m ((c : Thread nD τ).loc main_arg10) :=
  (r3 main_arg10).trans <| (h3 main_arg10).trans <| (r2 main_arg10).trans <| (r1 main_arg10).trans <| (h1 main_arg10).trans <|
    (r0 main_arg10).trans <| (h0 main_arg10).trans rfl
theorem arg11_at7 : W7 m ρ c (Proc.devRef .tc main_arg11) = m ((c : Thread nD τ).loc main_arg11) :=
  (r3 main_arg11).trans <| (h3 main_arg11).trans <| (r2 main_arg11).trans <| (r1 main_arg11).trans <| (h1 main_arg11).trans <|
    (r0 main_arg11).trans <| (h0 main_arg11).trans rfl

/-! ## The graph indices, when the pooling stretch is entered -/

theorem arg2_at10 : W10 m ρ c (Proc.devRef .tc main_arg2) = m ((c : Thread nD τ).loc main_arg2) :=
  (r5 main_arg2).trans <| (h5 main_arg2).trans <| (r4 main_arg2).trans <| (r3 main_arg2).trans <| (h3 main_arg2).trans <|
    (r2 main_arg2).trans <| (r1 main_arg2).trans <| (h1 main_arg2).trans <| (r0 main_arg2).trans <| (h0 main_arg2).trans rfl

/-! ## The two edge-index rows, at each stretch that gathers and scatters with them -/

theorem v1_at2 : W2 m ρ c (Proc.devRef .tc main_v1) = W1 m ρ c (Proc.devRef .tc main_v1) := r0 main_v1
theorem v3_at2 : W2 m ρ c (Proc.devRef .tc main_v3) = W1 m ρ c (Proc.devRef .tc main_v3) := r0 main_v3
theorem v1_at5 : W5 m ρ c (Proc.devRef .tc main_v1) = W1 m ρ c (Proc.devRef .tc main_v1) :=
  (r2 main_v1).trans <| (r1 main_v1).trans <| (h1 main_v1).trans <| r0 main_v1
theorem v3_at5 : W5 m ρ c (Proc.devRef .tc main_v3) = W1 m ρ c (Proc.devRef .tc main_v3) :=
  (r2 main_v3).trans <| (r1 main_v3).trans <| (h1 main_v3).trans <| r0 main_v3
theorem v1_at8 : W8 m ρ c (Proc.devRef .tc main_v1) = W1 m ρ c (Proc.devRef .tc main_v1) :=
  (r4 main_v1).trans <| (r3 main_v1).trans <| (h3 main_v1).trans <| v1_at5 m ρ c
theorem v3_at8 : W8 m ρ c (Proc.devRef .tc main_v3) = W1 m ρ c (Proc.devRef .tc main_v3) :=
  (r4 main_v3).trans <| (r3 main_v3).trans <| (h3 main_v3).trans <| v3_at5 m ρ c

/-! ## The column shares, from the first stretch to the return -/

theorem v7_at11 : W11 m ρ c (Proc.devRef .tc main_v7) = W1 m ρ c (Proc.devRef .tc main_v7) :=
  (h6 main_v7).trans <| (r5 main_v7).trans <| (h5 main_v7).trans <| (r4 main_v7).trans <| (r3 main_v7).trans <|
    (h3 main_v7).trans <| (r2 main_v7).trans <| (r1 main_v7).trans <| (h1 main_v7).trans <| r0 main_v7

/-! ## A dense call's second output across the host stretch after it -/

theorem v8_1_at3 : W3 m ρ c (Proc.devRef .tc main_v8_1) = W2 m ρ c (Proc.devRef .tc main_v8_1) := h1 main_v8_1
theorem v21_1_at6 : W6 m ρ c (Proc.devRef .tc main_v21_1) = W5 m ρ c (Proc.devRef .tc main_v21_1) := h3 main_v21_1
theorem v34_1_at9 : W9 m ρ c (Proc.devRef .tc main_v34_1) = W8 m ρ c (Proc.devRef .tc main_v34_1) := h5 main_v34_1

end Cert.KernelIdeal.Keep

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.Dense0.lean ====
/-
  The dense pallas_call number 0 (a grid of 10 points, 5000 node rows each), read as two whole arrays.

  At a point the body loads 5000 rows of the node features, both 128×128 weight matrices and the bias row, and stores
  two blocks: the rows times the first matrix, and the rows times the second matrix plus the bias row.  Entry (p, q) of
  a stored block depends on row p of the loaded rows only, so the two blocks are the blocks of two functions of the WHOLE
  arrays — X·W₁ and X·W₂ + b, entry by entry — and the ten blocks tile the 50000 rows: point t covers the rows
  5000·t … 5000·t + 4999.  Hence the two arrays the call leaves are X·W₁ and X·W₂ + b.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Dense0

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The matrix unit's product of a 5000×128 block with a 128×128 matrix into zeros, at an entry. -/
theorem block_product (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  Cert.LibDenseEntry.matmul_plain_zero_apply _ rfl rfl rfl rfl rfl rfl none x w p q

/-- The first stored block: rows times the first matrix (the changes of float format are the identity). -/
theorem first_block (x0 : Vec Ideal S5000x128 .f32) (x1 : Vec Ideal S128x128 .f32) (j : S5000x128.Idx) :
    k0_pay3 x0 x1 j = ∑ k : Fin 128, x0 (ix2 (n0 := 5000) (n1 := 128) (j 0) k) * x1 (ix2 (n0 := 128) (n1 := 128) k (j 1)) := by
  obtain ⟨p, q, rfl⟩ : ∃ (p : Fin 5000) (q : Fin 128), j = ix2 p q := ⟨j 0, j 1, eq_ix2 j⟩
  unfold k0_pay3 k0_pay1
  refine (block_product _ _ p q).trans ?_
  first | rfl | (rw [shapeCast_self]; rfl) | (rw [shapeCast_self])

/-- The second stored block: rows times the second matrix, plus the bias row. -/
theorem second_block (x0 : Vec Ideal S5000x128 .f32) (x2 : Vec Ideal S128x128 .f32) (x3 : Vec Ideal S128 .f32)
    (j : S5000x128.Idx) :
    k0_pay2 x0 x2 x3 j = (∑ k : Fin 128, x0 (ix2 (n0 := 5000) (n1 := 128) (j 0) k) * x2 (ix2 (n0 := 128) (n1 := 128) k (j 1)))
      + x3 (ix1 (n := 128) (j 1)) := by
  obtain ⟨p, q, rfl⟩ : ∃ (p : Fin 5000) (q : Fin 128), j = ix2 p q := ⟨j 0, j 1, eq_ix2 j⟩
  unfold k0_pay2 k0_pay1
  refine (addf_apply _ _ _).trans ?_
  refine congrArg₂ (· + ·) ((block_product _ _ p q).trans ?_) ?_
  · first | rfl | (rw [shapeCast_self]; rfl) | (rw [shapeCast_self])
  · refine (broadcastTo_1b_ab_apply _ _ p q).trans ?_
    exact shapeCast_a_1a_apply _ _ 0 q

/-- The printed index maps over the ten points: the node rows' window and both output windows sit at block (t, 0),
    the weights' and the bias's windows at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node rows' block at point t, read at (y, k), is the array at (the output block's row, k). -/
theorem rows_read (c : Dev nD) (t : Fin cfg0.N) (w : Fin 2 → ℕ) (hw0 : w 0 = t.val) (hw1 : w 1 = 0)
    (j : S5000x128.Idx) (k : Fin 128) (i : S50000x128.Idx)
    (hi0 : (i 0).val = w 0 * 5000 + 1 * (j 0).val) :
    iblk0 V c 0 t (ix2 (n0 := 5000) (n1 := 128) (j 0) k) = V c main_arg0 (ix2 (n0 := 50000) (n1 := 128) (i 0) k) := by
  obtain ⟨e0, e1, -⟩ := index_maps t
  show V c main_arg0 (((cfg0.win 0).blk t).view.emb (ix2 (n0 := 5000) (n1 := 128) (j 0) k)) = _
  refine congrArg _ (funext fun a => Fin.ext ?_)
  match a with
  | ⟨0, _⟩ => show win0_0.index t (0 : Fin 2) * 5000 + 1 * (j 0).val = (i 0).val; omega
  | ⟨1, _⟩ => show win0_0.index t (1 : Fin 2) * 128 + 1 * k.val = k.val; omega

/-- A weight matrix's block at any point is the matrix. -/
theorem weights1_read (c : Dev nD) (t : Fin cfg0.N) (y : S128x128.Idx) : iblk0 V c 1 t y = V c main_arg3 y := by
  obtain ⟨-, -, e2, e3, -⟩ := index_maps t
  show V c main_arg3 (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem weights2_read (c : Dev nD) (t : Fin cfg0.N) (y : S128x128.Idx) : iblk0 V c 2 t y = V c main_arg4 y := by
  obtain ⟨-, -, -, -, e4, e5, -⟩ := index_maps t
  show V c main_arg4 (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block at any point is the row. -/
theorem bias_read (c : Dev nD) (t : Fin cfg0.N) (y : S128.Idx) : iblk0 V c 3 t y = V c main_arg5 y := by
  obtain ⟨-, -, -, -, -, -, e6, -⟩ := index_maps t
  show V c main_arg5 (((cfg0.win 3).blk t).view.emb y) = _
  refine congrArg _ (funext fun a => Fin.ext ?_)
  match a with
  | ⟨0, _⟩ => show win0_3.index t (0 : Fin 1) * 128 + 1 * (y 0).val = (y 0).val; omega

/-- What point t writes back to the first output is block t of X·W₁. -/
theorem flushed_first (c : Dev nD) (t : Fin cfg0.N) :
    (dat0 V c).flushed 4 t = ((cfg0.win 4).blk t).view.read (Elt Ideal)
      (mm (N := 50000) (C := 128) (V c main_arg0) (V c main_arg3)) := by
  show (cfg0.win 4).cut (grid0.coords t) ((dat0 V c).after 4 t) = _
  rw [after0_4]
  unfold out0_4
  rw [View.canon_unit_zero zero2]
  simp only [View.ld_unit_zero (S := S5000x128) zero2, View.ld_unit_zero (S := S128x128) zero2]
  obtain ⟨e0, e1, e2, e3, e4, e5, e6, e7, e8, e9, e10⟩ := index_maps t
  funext j
  show k0_pay3 (iblk0 V c 0 t) (iblk0 V c 1 t) j
    = mm (N := 50000) (C := 128) (V c main_arg0) (V c main_arg3) (((cfg0.win 4).blk t).view.emb j)
  refine (first_block (iblk0 V c 0 t) (iblk0 V c 1 t) j).trans ?_
  unfold mm
  refine Finset.sum_congr rfl fun k _ => ?_
  refine congrArg₂ (· * ·) ?_ ?_
  · exact rows_read V c t (win0_4.index t) e7 e8 j k (((cfg0.win 4).blk t).view.emb j) rfl
  · refine (weights1_read V c t _).trans (congrArg _ (funext fun a => Fin.ext ?_))
    match a with
    | ⟨0, _⟩ => rfl
    | ⟨1, _⟩ => show (j 1).val = win0_4.index t (1 : Fin 2) * 128 + 1 * (j 1).val; omega

/-- What point t writes back to the second output is block t of X·W₂ + b. -/
theorem flushed_second (c : Dev nD) (t : Fin cfg0.N) :
    (dat0 V c).flushed 5 t = ((cfg0.win 5).blk t).view.read (Elt Ideal)
      (affine (V c main_arg0) (V c main_arg4) (V c main_arg5)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2,
    View.ld_unit_zero (S := S128) zero1]
  obtain ⟨e0, e1, e2, e3, e4, e5, e6, e7, e8, e9, e10⟩ := index_maps t
  funext j
  show k0_pay2 (iblk0 V c 0 t) (iblk0 V c 2 t) (iblk0 V c 3 t) j
    = affine (V c main_arg0) (V c main_arg4) (V c main_arg5) (((cfg0.win 5).blk t).view.emb j)
  refine (second_block (iblk0 V c 0 t) (iblk0 V c 2 t) (iblk0 V c 3 t) j).trans ?_
  unfold affine mm
  refine congrArg₂ (· + ·) (Finset.sum_congr rfl fun k _ => congrArg₂ (· * ·) ?_ ?_) ?_
  · exact rows_read V c t (win0_5.index t) e9 e10 j k (((cfg0.win 5).blk t).view.emb j) rfl
  · refine (weights2_read V c t _).trans (congrArg _ (funext fun a => Fin.ext ?_))
    match a with
    | ⟨0, _⟩ => rfl
    | ⟨1, _⟩ => show (j 1).val = win0_5.index t (1 : Fin 2) * 128 + 1 * (j 1).val; omega
  · refine (bias_read V c t _).trans (congrArg _ (funext fun a => Fin.ext ?_))
    match a with
    | ⟨0, _⟩ => show (j 1).val = win0_5.index t (1 : Fin 2) * 128 + 1 * (j 1).val; omega

/-- An index of the array is in point t's block of output window 4 iff each coordinate is in the block's range. -/
theorem mem_first (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v8_0).slice (win0_4.rect t)).set ↔ _
  rw [View.set_slice_whole, Rect.mem_set_unit]
  exact Iff.rfl

theorem mem_second (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v8_1).slice (win0_5.rect t)).set ↔ _
  rw [View.set_slice_whole, Rect.mem_set_unit]
  exact Iff.rfl

/-- The point that covers row r is r / 5000. -/
theorem point_of_row (i : S50000x128.Idx) : ∃ t : Fin cfg0.N, t.val = (i 0).val / 5000 := by
  have hi : (i 0).val < 50000 := (i 0).isLt
  exact ⟨⟨(i 0).val / 5000, by rw [show cfg0.N = 10 from N_0]; omega⟩, rfl⟩

/-- THE FIRST OUTPUT ARRAY after the call is X·W₁. -/
theorem first_array (c : Dev nD) :
    (dat0 V c).arrAt 4 cfg0.N = mm (N := 50000) (C := 128) (V c main_arg0) (V c main_arg3) :=
  (dat0 V c).arrAt_eq_of_cover 4 _ (fun t _ => flushed_first V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush0_4 t, ?_⟩
    rw [mem_first]
    intro a
    match a with
    | ⟨0, _⟩ => show win0_4.index t (0 : Fin 2) * 5000 ≤ (i 0).val ∧ (i 0).val < win0_4.index t (0 : Fin 2) * 5000 + 5000; omega
    | ⟨1, _⟩ => show win0_4.index t (1 : Fin 2) * 128 ≤ (i 1).val ∧ (i 1).val < win0_4.index t (1 : Fin 2) * 128 + 128; omega)

/-- THE SECOND OUTPUT ARRAY after the call is X·W₂ + b. -/
theorem second_array (c : Dev nD) :
    (dat0 V c).arrAt 5 cfg0.N = affine (V c main_arg0) (V c main_arg4) (V c main_arg5) :=
  (dat0 V c).arrAt_eq_of_cover 5 _ (fun t _ => flushed_second V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush0_5 t, ?_⟩
    rw [mem_second]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega)

end Cert.KernelIdeal.Dense0

end
-- ==== Proof.Dense2.lean ====
/-
  The dense pallas_call number 2 (a grid of 10 points, 5000 node rows each), read as two whole arrays.

  At a point the body loads 5000 rows of the node features, both 128×128 weight matrices and the bias row, and stores
  two blocks: the rows times the first matrix, and the rows times the second matrix plus the bias row.  Entry (p, q) of
  a stored block depends on row p of the loaded rows only, so the two blocks are the blocks of two functions of the WHOLE
  arrays — X·W₁ and X·W₂ + b, entry by entry — and the ten blocks tile the 50000 rows: point t covers the rows
  5000·t … 5000·t + 4999.  Hence the two arrays the call leaves are X·W₁ and X·W₂ + b.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Dense2

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The matrix unit's product of a 5000×128 block with a 128×128 matrix into zeros, at an entry. -/
theorem block_product (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  Cert.LibDenseEntry.matmul_plain_zero_apply _ rfl rfl rfl rfl rfl rfl none x w p q

/-- The first stored block: rows times the first matrix (the changes of float format are the identity). -/
theorem first_block (x0 : Vec Ideal S5000x128 .bf16) (x1 : Vec Ideal S128x128 .f32) (j : S5000x128.Idx) :
    k2_pay3 x0 x1 j = ∑ k : Fin 128, x0 (ix2 (n0 := 5000) (n1 := 128) (j 0) k) * x1 (ix2 (n0 := 128) (n1 := 128) k (j 1)) := by
  obtain ⟨p, q, rfl⟩ : ∃ (p : Fin 5000) (q : Fin 128), j = ix2 p q := ⟨j 0, j 1, eq_ix2 j⟩
  unfold k2_pay3 k2_pay1
  refine (block_product _ _ p q).trans ?_
  first | rfl | (rw [shapeCast_self]; rfl) | (rw [shapeCast_self])

/-- The second stored block: rows times the second matrix, plus the bias row. -/
theorem second_block (x0 : Vec Ideal S5000x128 .bf16) (x2 : Vec Ideal S128x128 .f32) (x3 : Vec Ideal S128 .f32)
    (j : S5000x128.Idx) :
    k2_pay2 x0 x2 x3 j = (∑ k : Fin 128, x0 (ix2 (n0 := 5000) (n1 := 128) (j 0) k) * x2 (ix2 (n0 := 128) (n1 := 128) k (j 1)))
      + x3 (ix1 (n := 128) (j 1)) := by
  obtain ⟨p, q, rfl⟩ : ∃ (p : Fin 5000) (q : Fin 128), j = ix2 p q := ⟨j 0, j 1, eq_ix2 j⟩
  unfold k2_pay2 k2_pay1
  refine (addf_apply _ _ _).trans ?_
  refine congrArg₂ (· + ·) ((block_product _ _ p q).trans ?_) ?_
  · first | rfl | (rw [shapeCast_self]; rfl) | (rw [shapeCast_self])
  · refine (broadcastTo_1b_ab_apply _ _ p q).trans ?_
    exact shapeCast_a_1a_apply _ _ 0 q

/-- The printed index maps over the ten points: the node rows' window and both output windows sit at block (t, 0),
    the weights' and the bias's windows at their one block. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The node rows' block at point t, read at (y, k), is the array at (the output block's row, k). -/
theorem rows_read (c : Dev nD) (t : Fin cfg2.N) (w : Fin 2 → ℕ) (hw0 : w 0 = t.val) (hw1 : w 1 = 0)
    (j : S5000x128.Idx) (k : Fin 128) (i : S50000x128.Idx)
    (hi0 : (i 0).val = w 0 * 5000 + 1 * (j 0).val) :
    iblk2 V c 0 t (ix2 (n0 := 5000) (n1 := 128) (j 0) k) = V c main_v20 (ix2 (n0 := 50000) (n1 := 128) (i 0) k) := by
  obtain ⟨e0, e1, -⟩ := index_maps t
  show V c main_v20 (((cfg2.win 0).blk t).view.emb (ix2 (n0 := 5000) (n1 := 128) (j 0) k)) = _
  refine congrArg _ (funext fun a => Fin.ext ?_)
  match a with
  | ⟨0, _⟩ => show win2_0.index t (0 : Fin 2) * 5000 + 1 * (j 0).val = (i 0).val; omega
  | ⟨1, _⟩ => show win2_0.index t (1 : Fin 2) * 128 + 1 * k.val = k.val; omega

/-- A weight matrix's block at any point is the matrix. -/
theorem weights1_read (c : Dev nD) (t : Fin cfg2.N) (y : S128x128.Idx) : iblk2 V c 1 t y = V c main_arg6 y := by
  obtain ⟨-, -, e2, e3, -⟩ := index_maps t
  show V c main_arg6 (((cfg2.win 1).blk t).view.emb y) = _
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem weights2_read (c : Dev nD) (t : Fin cfg2.N) (y : S128x128.Idx) : iblk2 V c 2 t y = V c main_arg7 y := by
  obtain ⟨-, -, -, -, e4, e5, -⟩ := index_maps t
  show V c main_arg7 (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's block at any point is the row. -/
theorem bias_read (c : Dev nD) (t : Fin cfg2.N) (y : S128.Idx) : iblk2 V c 3 t y = V c main_arg8 y := by
  obtain ⟨-, -, -, -, -, -, e6, -⟩ := index_maps t
  show V c main_arg8 (((cfg2.win 3).blk t).view.emb y) = _
  refine congrArg _ (funext fun a => Fin.ext ?_)
  match a with
  | ⟨0, _⟩ => show win2_3.index t (0 : Fin 1) * 128 + 1 * (y 0).val = (y 0).val; omega

/-- What point t writes back to the first output is block t of X·W₁. -/
theorem flushed_first (c : Dev nD) (t : Fin cfg2.N) :
    (dat2 V c).flushed 4 t = ((cfg2.win 4).blk t).view.read (Elt Ideal)
      (mm (N := 50000) (C := 128) (V c main_v20) (V c main_arg6)) := by
  show (cfg2.win 4).cut (grid2.coords t) ((dat2 V c).after 4 t) = _
  rw [after2_4]
  unfold out2_4
  rw [View.canon_unit_zero zero2]
  simp only [View.ld_unit_zero (S := S5000x128) zero2, View.ld_unit_zero (S := S128x128) zero2]
  obtain ⟨e0, e1, e2, e3, e4, e5, e6, e7, e8, e9, e10⟩ := index_maps t
  funext j
  show k2_pay3 (iblk2 V c 0 t) (iblk2 V c 1 t) j
    = mm (N := 50000) (C := 128) (V c main_v20) (V c main_arg6) (((cfg2.win 4).blk t).view.emb j)
  refine (first_block (iblk2 V c 0 t) (iblk2 V c 1 t) j).trans ?_
  unfold mm
  refine Finset.sum_congr rfl fun k _ => ?_
  refine congrArg₂ (· * ·) ?_ ?_
  · exact rows_read V c t (win2_4.index t) e7 e8 j k (((cfg2.win 4).blk t).view.emb j) rfl
  · refine (weights1_read V c t _).trans (congrArg _ (funext fun a => Fin.ext ?_))
    match a with
    | ⟨0, _⟩ => rfl
    | ⟨1, _⟩ => show (j 1).val = win2_4.index t (1 : Fin 2) * 128 + 1 * (j 1).val; omega

/-- What point t writes back to the second output is block t of X·W₂ + b. -/
theorem flushed_second (c : Dev nD) (t : Fin cfg2.N) :
    (dat2 V c).flushed 5 t = ((cfg2.win 5).blk t).view.read (Elt Ideal)
      (affine (V c main_v20) (V c main_arg7) (V c main_arg8)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2,
    View.ld_unit_zero (S := S128) zero1]
  obtain ⟨e0, e1, e2, e3, e4, e5, e6, e7, e8, e9, e10⟩ := index_maps t
  funext j
  show k2_pay2 (iblk2 V c 0 t) (iblk2 V c 2 t) (iblk2 V c 3 t) j
    = affine (V c main_v20) (V c main_arg7) (V c main_arg8) (((cfg2.win 5).blk t).view.emb j)
  refine (second_block (iblk2 V c 0 t) (iblk2 V c 2 t) (iblk2 V c 3 t) j).trans ?_
  unfold affine mm
  refine congrArg₂ (· + ·) (Finset.sum_congr rfl fun k _ => congrArg₂ (· * ·) ?_ ?_) ?_
  · exact rows_read V c t (win2_5.index t) e9 e10 j k (((cfg2.win 5).blk t).view.emb j) rfl
  · refine (weights2_read V c t _).trans (congrArg _ (funext fun a => Fin.ext ?_))
    match a with
    | ⟨0, _⟩ => rfl
    | ⟨1, _⟩ => show (j 1).val = win2_5.index t (1 : Fin 2) * 128 + 1 * (j 1).val; omega
  · refine (bias_read V c t _).trans (congrArg _ (funext fun a => Fin.ext ?_))
    match a with
    | ⟨0, _⟩ => show (j 1).val = win2_5.index t (1 : Fin 2) * 128 + 1 * (j 1).val; omega

/-- An index of the array is in point t's block of output window 4 iff each coordinate is in the block's range. -/
theorem mem_first (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v21_0).slice (win2_4.rect t)).set ↔ _
  rw [View.set_slice_whole, Rect.mem_set_unit]
  exact Iff.rfl

theorem mem_second (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v21_1).slice (win2_5.rect t)).set ↔ _
  rw [View.set_slice_whole, Rect.mem_set_unit]
  exact Iff.rfl

/-- The point that covers row r is r / 5000. -/
theorem point_of_row (i : S50000x128.Idx) : ∃ t : Fin cfg2.N, t.val = (i 0).val / 5000 := by
  have hi : (i 0).val < 50000 := (i 0).isLt
  exact ⟨⟨(i 0).val / 5000, by rw [show cfg2.N = 10 from N_2]; omega⟩, rfl⟩

/-- THE FIRST OUTPUT ARRAY after the call is X·W₁. -/
theorem first_array (c : Dev nD) :
    (dat2 V c).arrAt 4 cfg2.N = mm (N := 50000) (C := 128) (V c main_v20) (V c main_arg6) :=
  (dat2 V c).arrAt_eq_of_cover 4 _ (fun t _ => flushed_first V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush2_4 t, ?_⟩
    rw [mem_first]
    intro a
    match a with
    | ⟨0, _⟩ => show win2_4.index t (0 : Fin 2) * 5000 ≤ (i 0).val ∧ (i 0).val < win2_4.index t (0 : Fin 2) * 5000 + 5000; omega
    | ⟨1, _⟩ => show win2_4.index t (1 : Fin 2) * 128 ≤ (i 1).val ∧ (i 1).val < win2_4.index t (1 : Fin 2) * 128 + 128; omega)

/-- THE SECOND OUTPUT ARRAY after the call is X·W₂ + b. -/
theorem second_array (c : Dev nD) :
    (dat2 V c).arrAt 5 cfg2.N = affine (V c main_v20) (V c main_arg7) (V c main_arg8) :=
  (dat2 V c).arrAt_eq_of_cover 5 _ (fun t _ => flushed_second V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush2_5 t, ?_⟩
    rw [mem_second]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 128 ≤ (i 1).val ∧ (i 1).val < win2_5.index t (1 : Fin 2) * 128 + 128; omega)

end Cert.KernelIdeal.Dense2

end
-- ==== Proof.Dense4.lean ====
/-
  The dense pallas_call number 4 (a grid of 10 points, 5000 node rows each), read as two whole arrays.

  At a point the body loads 5000 rows of the node features, both 128×128 weight matrices and the bias row, and stores
  two blocks: the rows times the first matrix, and the rows times the second matrix plus the bias row.  Entry (p, q) of
  a stored block depends on row p of the loaded rows only, so the two blocks are the blocks of two functions of the WHOLE
  arrays — X·W₁ and X·W₂ + b, entry by entry — and the ten blocks tile the 50000 rows: point t covers the rows
  5000·t … 5000·t + 4999.  Hence the two arrays the call leaves are X·W₁ and X·W₂ + b.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Dense4

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The matrix unit's product of a 5000×128 block with a 128×128 matrix into zeros, at an entry. -/
theorem block_product (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  Cert.LibDenseEntry.matmul_plain_zero_apply _ rfl rfl rfl rfl rfl rfl none x w p q

/-- The first stored block: rows times the first matrix (the changes of float format are the identity). -/
theorem first_block (x0 : Vec Ideal S5000x128 .bf16) (x1 : Vec Ideal S128x128 .f32) (j : S5000x128.Idx) :
    k4_pay3 x0 x1 j = ∑ k : Fin 128, x0 (ix2 (n0 := 5000) (n1 := 128) (j 0) k) * x1 (ix2 (n0 := 128) (n1 := 128) k (j 1)) := by
  obtain ⟨p, q, rfl⟩ : ∃ (p : Fin 5000) (q : Fin 128), j = ix2 p q := ⟨j 0, j 1, eq_ix2 j⟩
  unfold k4_pay3 k4_pay1
  refine (block_product _ _ p q).trans ?_
  first | rfl | (rw [shapeCast_self]; rfl) | (rw [shapeCast_self])

/-- The second stored block: rows times the second matrix, plus the bias row. -/
theorem second_block (x0 : Vec Ideal S5000x128 .bf16) (x2 : Vec Ideal S128x128 .f32) (x3 : Vec Ideal S128 .f32)
    (j : S5000x128.Idx) :
    k4_pay2 x0 x2 x3 j = (∑ k : Fin 128, x0 (ix2 (n0 := 5000) (n1 := 128) (j 0) k) * x2 (ix2 (n0 := 128) (n1 := 128) k (j 1)))
      + x3 (ix1 (n := 128) (j 1)) := by
  obtain ⟨p, q, rfl⟩ : ∃ (p : Fin 5000) (q : Fin 128), j = ix2 p q := ⟨j 0, j 1, eq_ix2 j⟩
  unfold k4_pay2 k4_pay1
  refine (addf_apply _ _ _).trans ?_
  refine congrArg₂ (· + ·) ((block_product _ _ p q).trans ?_) ?_
  · first | rfl | (rw [shapeCast_self]; rfl) | (rw [shapeCast_self])
  · refine (broadcastTo_1b_ab_apply _ _ p q).trans ?_
    exact shapeCast_a_1a_apply _ _ 0 q

/-- The printed index maps over the ten points: the node rows' window and both output windows sit at block (t, 0),
    the weights' and the bias's windows at their one block. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The node rows' block at point t, read at (y, k), is the array at (the output block's row, k). -/
theorem rows_read (c : Dev nD) (t : Fin cfg4.N) (w : Fin 2 → ℕ) (hw0 : w 0 = t.val) (hw1 : w 1 = 0)
    (j : S5000x128.Idx) (k : Fin 128) (i : S50000x128.Idx)
    (hi0 : (i 0).val = w 0 * 5000 + 1 * (j 0).val) :
    iblk4 V c 0 t (ix2 (n0 := 5000) (n1 := 128) (j 0) k) = V c main_v33 (ix2 (n0 := 50000) (n1 := 128) (i 0) k) := by
  obtain ⟨e0, e1, -⟩ := index_maps t
  show V c main_v33 (((cfg4.win 0).blk t).view.emb (ix2 (n0 := 5000) (n1 := 128) (j 0) k)) = _
  refine congrArg _ (funext fun a => Fin.ext ?_)
  match a with
  | ⟨0, _⟩ => show win4_0.index t (0 : Fin 2) * 5000 + 1 * (j 0).val = (i 0).val; omega
  | ⟨1, _⟩ => show win4_0.index t (1 : Fin 2) * 128 + 1 * k.val = k.val; omega

/-- A weight matrix's block at any point is the matrix. -/
theorem weights1_read (c : Dev nD) (t : Fin cfg4.N) (y : S128x128.Idx) : iblk4 V c 1 t y = V c main_arg9 y := by
  obtain ⟨-, -, e2, e3, -⟩ := index_maps t
  show V c main_arg9 (((cfg4.win 1).blk t).view.emb y) = _
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem weights2_read (c : Dev nD) (t : Fin cfg4.N) (y : S128x128.Idx) : iblk4 V c 2 t y = V c main_arg10 y := by
  obtain ⟨-, -, -, -, e4, e5, -⟩ := index_maps t
  show V c main_arg10 (((cfg4.win 2).blk t).view.emb y) = _
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The bias row's block at any point is the row. -/
theorem bias_read (c : Dev nD) (t : Fin cfg4.N) (y : S128.Idx) : iblk4 V c 3 t y = V c main_arg11 y := by
  obtain ⟨-, -, -, -, -, -, e6, -⟩ := index_maps t
  show V c main_arg11 (((cfg4.win 3).blk t).view.emb y) = _
  refine congrArg _ (funext fun a => Fin.ext ?_)
  match a with
  | ⟨0, _⟩ => show win4_3.index t (0 : Fin 1) * 128 + 1 * (y 0).val = (y 0).val; omega

/-- What point t writes back to the first output is block t of X·W₁. -/
theorem flushed_first (c : Dev nD) (t : Fin cfg4.N) :
    (dat4 V c).flushed 4 t = ((cfg4.win 4).blk t).view.read (Elt Ideal)
      (mm (N := 50000) (C := 128) (V c main_v33) (V c main_arg9)) := by
  show (cfg4.win 4).cut (grid4.coords t) ((dat4 V c).after 4 t) = _
  rw [after4_4]
  unfold out4_4
  rw [View.canon_unit_zero zero2]
  simp only [View.ld_unit_zero (S := S5000x128) zero2, View.ld_unit_zero (S := S128x128) zero2]
  obtain ⟨e0, e1, e2, e3, e4, e5, e6, e7, e8, e9, e10⟩ := index_maps t
  funext j
  show k4_pay3 (iblk4 V c 0 t) (iblk4 V c 1 t) j
    = mm (N := 50000) (C := 128) (V c main_v33) (V c main_arg9) (((cfg4.win 4).blk t).view.emb j)
  refine (first_block (iblk4 V c 0 t) (iblk4 V c 1 t) j).trans ?_
  unfold mm
  refine Finset.sum_congr rfl fun k _ => ?_
  refine congrArg₂ (· * ·) ?_ ?_
  · exact rows_read V c t (win4_4.index t) e7 e8 j k (((cfg4.win 4).blk t).view.emb j) rfl
  · refine (weights1_read V c t _).trans (congrArg _ (funext fun a => Fin.ext ?_))
    match a with
    | ⟨0, _⟩ => rfl
    | ⟨1, _⟩ => show (j 1).val = win4_4.index t (1 : Fin 2) * 128 + 1 * (j 1).val; omega

/-- What point t writes back to the second output is block t of X·W₂ + b. -/
theorem flushed_second (c : Dev nD) (t : Fin cfg4.N) :
    (dat4 V c).flushed 5 t = ((cfg4.win 5).blk t).view.read (Elt Ideal)
      (affine (V c main_v33) (V c main_arg10) (V c main_arg11)) := by
  show (cfg4.win 5).cut (grid4.coords t) ((dat4 V c).after 5 t) = _
  rw [after4_5]
  unfold out4_5
  rw [View.canon_unit_zero zero2]
  simp only [View.ld_unit_zero (S := S5000x128) zero2, View.ld_unit_zero (S := S128x128) zero2,
    View.ld_unit_zero (S := S128) zero1]
  obtain ⟨e0, e1, e2, e3, e4, e5, e6, e7, e8, e9, e10⟩ := index_maps t
  funext j
  show k4_pay2 (iblk4 V c 0 t) (iblk4 V c 2 t) (iblk4 V c 3 t) j
    = affine (V c main_v33) (V c main_arg10) (V c main_arg11) (((cfg4.win 5).blk t).view.emb j)
  refine (second_block (iblk4 V c 0 t) (iblk4 V c 2 t) (iblk4 V c 3 t) j).trans ?_
  unfold affine mm
  refine congrArg₂ (· + ·) (Finset.sum_congr rfl fun k _ => congrArg₂ (· * ·) ?_ ?_) ?_
  · exact rows_read V c t (win4_5.index t) e9 e10 j k (((cfg4.win 5).blk t).view.emb j) rfl
  · refine (weights2_read V c t _).trans (congrArg _ (funext fun a => Fin.ext ?_))
    match a with
    | ⟨0, _⟩ => rfl
    | ⟨1, _⟩ => show (j 1).val = win4_5.index t (1 : Fin 2) * 128 + 1 * (j 1).val; omega
  · refine (bias_read V c t _).trans (congrArg _ (funext fun a => Fin.ext ?_))
    match a with
    | ⟨0, _⟩ => show (j 1).val = win4_5.index t (1 : Fin 2) * 128 + 1 * (j 1).val; omega

/-- An index of the array is in point t's block of output window 4 iff each coordinate is in the block's range. -/
theorem mem_first (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v34_0).slice (win4_4.rect t)).set ↔ _
  rw [View.set_slice_whole, Rect.mem_set_unit]
  exact Iff.rfl

theorem mem_second (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v34_1).slice (win4_5.rect t)).set ↔ _
  rw [View.set_slice_whole, Rect.mem_set_unit]
  exact Iff.rfl

/-- The point that covers row r is r / 5000. -/
theorem point_of_row (i : S50000x128.Idx) : ∃ t : Fin cfg4.N, t.val = (i 0).val / 5000 := by
  have hi : (i 0).val < 50000 := (i 0).isLt
  exact ⟨⟨(i 0).val / 5000, by rw [show cfg4.N = 10 from N_4]; omega⟩, rfl⟩

/-- THE FIRST OUTPUT ARRAY after the call is X·W₁. -/
theorem first_array (c : Dev nD) :
    (dat4 V c).arrAt 4 cfg4.N = mm (N := 50000) (C := 128) (V c main_v33) (V c main_arg9) :=
  (dat4 V c).arrAt_eq_of_cover 4 _ (fun t _ => flushed_first V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush4_4 t, ?_⟩
    rw [mem_first]
    intro a
    match a with
    | ⟨0, _⟩ => show win4_4.index t (0 : Fin 2) * 5000 ≤ (i 0).val ∧ (i 0).val < win4_4.index t (0 : Fin 2) * 5000 + 5000; omega
    | ⟨1, _⟩ => show win4_4.index t (1 : Fin 2) * 128 ≤ (i 1).val ∧ (i 1).val < win4_4.index t (1 : Fin 2) * 128 + 128; omega)

/-- THE SECOND OUTPUT ARRAY after the call is X·W₂ + b. -/
theorem second_array (c : Dev nD) :
    (dat4 V c).arrAt 5 cfg4.N = affine (V c main_v33) (V c main_arg10) (V c main_arg11) :=
  (dat4 V c).arrAt_eq_of_cover 5 _ (fun t _ => flushed_second V c t) (fun i => by
    obtain ⟨t, ht⟩ := point_of_row i
    obtain ⟨e0, e1, e2, e3, e4, e5, e6, e7, e8, e9, e10⟩ := index_maps t
    have hi0 : (i 0).val < 50000 := (i 0).isLt
    have hi1 : (i 1).val < 128 := (i 1).isLt
    refine ⟨t, flush4_5 t, ?_⟩
    rw [mem_second]
    intro a
    match a with
    | ⟨0, _⟩ => show win4_5.index t (0 : Fin 2) * 5000 ≤ (i 0).val ∧ (i 0).val < win4_5.index t (0 : Fin 2) * 5000 + 5000; omega
    | ⟨1, _⟩ => show win4_5.index t (1 : Fin 2) * 128 ≤ (i 1).val ∧ (i 1).val < win4_5.index t (1 : Fin 2) * 128 + 128; omega)

end Cert.KernelIdeal.Dense4

end
-- ==== Proof.Relu1.lean ====
/-
  The add-and-rectify pallas_call number 1 (a grid of 10 points, 5000 node rows each), read as one whole array.

  At a point the body loads the same 5000×128 block of its two input arrays, adds them entry by entry, takes the
  larger of the sum and zero, and stores the block.  The stored block is the block of ONE function of the whole arrays,
  max(a + r, 0) entry by entry, and the ten blocks tile the 50000 rows, so that function is the array the call leaves.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Relu1

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The stored block: the rectified sum of the two loaded blocks (a cast to the same shape and the change of float
    format are the identity; the zero word is the number zero). -/
theorem rectified_block (x0 x1 : Vec Ideal S5000x128 .f32) (j : S5000x128.Idx) :
    k1_pay1 x0 x1 j = max (x0 j + x1 j) 0 := by
  unfold k1_pay1
  show max (shapeCast S5000x128 x0 shapeCasts_S5000x128_S5000x128 j + shapeCast S5000x128 x1 shapeCasts_S5000x128_S5000x128 j)
    (Ideal.ofBits .f32 0x00000000#32) = _
  rw [shapeCast_self, shapeCast_self, Ideal.ofBits_zero_f32]

/-- The printed index maps over the ten points: all three windows sit at block (t, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of max(a + r, 0). -/
theorem flushed_block (c : Dev nD) (t : Fin cfg1.N) :
    (dat1 V c).flushed 2 t = ((cfg1.win 2).blk t).view.read (Elt Ideal)
      (addRelu (V c main_v19) (V c main_v8_1)) := by
  show (cfg1.win 2).cut (grid1.coords t) ((dat1 V c).after 2 t) = _
  rw [after1_2]
  unfold out1_2
  rw [View.canon_unit_zero zero2]
  simp only [View.ld_unit_zero (S := S5000x128) zero2]
  obtain ⟨e0, e1, e2, e3, e4, e5⟩ := index_maps t
  funext j
  show k1_pay1 (iblk1 V c 0 t) (iblk1 V c 1 t) j
    = addRelu (V c main_v19) (V c main_v8_1) (((cfg1.win 2).blk t).view.emb j)
  refine (rectified_block (iblk1 V c 0 t) (iblk1 V c 1 t) j).trans ?_
  unfold addRelu
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  refine congrArg₂ (fun a b : EReal => max (a + b) 0) ?_ ?_
  · show V c main_v19 (((cfg1.win 0).blk t).view.emb j) = _
    rw [h0]
  · show V c main_v8_1 (((cfg1.win 1).blk t).view.emb j) = _
    rw [h1]

/-- An index of the array is in point t's block iff each coordinate is in the block's range. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v20).slice (win1_2.rect t)).set ↔ _
  rw [View.set_slice_whole, Rect.mem_set_unit]
  exact Iff.rfl

/-- THE OUTPUT ARRAY after the call is max(a + r, 0). -/
theorem out_array (c : Dev nD) :
    (dat1 V c).arrAt 2 cfg1.N = addRelu (V c main_v19) (V c main_v8_1) :=
  (dat1 V c).arrAt_eq_of_cover 2 _ (fun t _ => flushed_block V c t) (fun i => by
    have hi0 : (i 0).val < 50000 := (i 0).isLt
    have hi1 : (i 1).val < 128 := (i 1).isLt
    let t : Fin cfg1.N := ⟨(i 0).val / 5000, by rw [show cfg1.N = 10 from N_1]; omega⟩
    have ht : t.val = (i 0).val / 5000 := rfl
    obtain ⟨e0, e1, e2, e3, e4, e5⟩ := index_maps t
    refine ⟨t, flush1_2 t, ?_⟩
    rw [mem_block]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega)

end Cert.KernelIdeal.Relu1

end
-- ==== Proof.Relu3.lean ====
/-
  The add-and-rectify pallas_call number 3 (a grid of 10 points, 5000 node rows each), read as one whole array.

  At a point the body loads the same 5000×128 block of its two input arrays, adds them entry by entry, takes the
  larger of the sum and zero, and stores the block.  The stored block is the block of ONE function of the whole arrays,
  max(a + r, 0) entry by entry, and the ten blocks tile the 50000 rows, so that function is the array the call leaves.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Relu3

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The stored block: the rectified sum of the two loaded blocks (a cast to the same shape and the change of float
    format are the identity; the zero word is the number zero). -/
theorem rectified_block (x0 x1 : Vec Ideal S5000x128 .f32) (j : S5000x128.Idx) :
    k3_pay1 x0 x1 j = max (x0 j + x1 j) 0 := by
  unfold k3_pay1
  show max (shapeCast S5000x128 x0 shapeCasts_S5000x128_S5000x128 j + shapeCast S5000x128 x1 shapeCasts_S5000x128_S5000x128 j)
    (Ideal.ofBits .f32 0x00000000#32) = _
  rw [shapeCast_self, shapeCast_self, Ideal.ofBits_zero_f32]

/-- The printed index maps over the ten points: all three windows sit at block (t, 0). -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of max(a + r, 0). -/
theorem flushed_block (c : Dev nD) (t : Fin cfg3.N) :
    (dat3 V c).flushed 2 t = ((cfg3.win 2).blk t).view.read (Elt Ideal)
      (addRelu (V c main_v32) (V c main_v21_1)) := by
  show (cfg3.win 2).cut (grid3.coords t) ((dat3 V c).after 2 t) = _
  rw [after3_2]
  unfold out3_2
  rw [View.canon_unit_zero zero2]
  simp only [View.ld_unit_zero (S := S5000x128) zero2]
  obtain ⟨e0, e1, e2, e3, e4, e5⟩ := index_maps t
  funext j
  show k3_pay1 (iblk3 V c 0 t) (iblk3 V c 1 t) j
    = addRelu (V c main_v32) (V c main_v21_1) (((cfg3.win 2).blk t).view.emb j)
  refine (rectified_block (iblk3 V c 0 t) (iblk3 V c 1 t) j).trans ?_
  unfold addRelu
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  refine congrArg₂ (fun a b : EReal => max (a + b) 0) ?_ ?_
  · show V c main_v32 (((cfg3.win 0).blk t).view.emb j) = _
    rw [h0]
  · show V c main_v21_1 (((cfg3.win 1).blk t).view.emb j) = _
    rw [h1]

/-- An index of the array is in point t's block iff each coordinate is in the block's range. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v33).slice (win3_2.rect t)).set ↔ _
  rw [View.set_slice_whole, Rect.mem_set_unit]
  exact Iff.rfl

/-- THE OUTPUT ARRAY after the call is max(a + r, 0). -/
theorem out_array (c : Dev nD) :
    (dat3 V c).arrAt 2 cfg3.N = addRelu (V c main_v32) (V c main_v21_1) :=
  (dat3 V c).arrAt_eq_of_cover 2 _ (fun t _ => flushed_block V c t) (fun i => by
    have hi0 : (i 0).val < 50000 := (i 0).isLt
    have hi1 : (i 1).val < 128 := (i 1).isLt
    let t : Fin cfg3.N := ⟨(i 0).val / 5000, by rw [show cfg3.N = 10 from N_3]; omega⟩
    have ht : t.val = (i 0).val / 5000 := rfl
    obtain ⟨e0, e1, e2, e3, e4, e5⟩ := index_maps t
    refine ⟨t, flush3_2 t, ?_⟩
    rw [mem_block]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 128 ≤ (i 1).val ∧ (i 1).val < win3_2.index t (1 : Fin 2) * 128 + 128; omega)

end Cert.KernelIdeal.Relu3

end
-- ==== Proof.Relu5.lean ====
/-
  The add-and-rectify pallas_call number 5 (a grid of 10 points, 5000 node rows each), read as one whole array.

  At a point the body loads the same 5000×128 block of its two input arrays, adds them entry by entry, takes the
  larger of the sum and zero, and stores the block.  The stored block is the block of ONE function of the whole arrays,
  max(a + r, 0) entry by entry, and the ten blocks tile the 50000 rows, so that function is the array the call leaves.
-/
import proofs.«174086_j18305150615818_2_alg».proof.Proof.Gen.KernelIdeal.Frame
import Idealize.ShloMosaic.Lib.Pipeline.Value
import Idealize.ShloMosaic.Lib.ValueLayout
import proofs.«174086_j18305150615818_2_alg».proof.Proof.GraphConvLaw
import proofs.«174086_j18305150615818_2_alg».proof.Proof.LibDenseEntry

noncomputable section

namespace Cert.KernelIdeal.Relu5

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The stored block: the rectified sum of the two loaded blocks (a cast to the same shape and the change of float
    format are the identity; the zero word is the number zero). -/
theorem rectified_block (x0 x1 : Vec Ideal S5000x128 .f32) (j : S5000x128.Idx) :
    k5_pay1 x0 x1 j = max (x0 j + x1 j) 0 := by
  unfold k5_pay1
  show max (shapeCast S5000x128 x0 shapeCasts_S5000x128_S5000x128 j + shapeCast S5000x128 x1 shapeCasts_S5000x128_S5000x128 j)
    (Ideal.ofBits .f32 0x00000000#32) = _
  rw [shapeCast_self, shapeCast_self, Ideal.ofBits_zero_f32]

/-- The printed index maps over the ten points: all three windows sit at block (t, 0). -/
theorem index_maps : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of max(a + r, 0). -/
theorem flushed_block (c : Dev nD) (t : Fin cfg5.N) :
    (dat5 V c).flushed 2 t = ((cfg5.win 2).blk t).view.read (Elt Ideal)
      (addRelu (V c main_v45) (V c main_v34_1)) := by
  show (cfg5.win 2).cut (grid5.coords t) ((dat5 V c).after 2 t) = _
  rw [after5_2]
  unfold out5_2
  rw [View.canon_unit_zero zero2]
  simp only [View.ld_unit_zero (S := S5000x128) zero2]
  obtain ⟨e0, e1, e2, e3, e4, e5⟩ := index_maps t
  funext j
  show k5_pay1 (iblk5 V c 0 t) (iblk5 V c 1 t) j
    = addRelu (V c main_v45) (V c main_v34_1) (((cfg5.win 2).blk t).view.emb j)
  refine (rectified_block (iblk5 V c 0 t) (iblk5 V c 1 t) j).trans ?_
  unfold addRelu
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  refine congrArg₂ (fun a b : EReal => max (a + b) 0) ?_ ?_
  · show V c main_v45 (((cfg5.win 0).blk t).view.emb j) = _
    rw [h0]
  · show V c main_v34_1 (((cfg5.win 1).blk t).view.emb j) = _
    rw [h1]

/-- An index of the array is in point t's block iff each coordinate is in the block's range. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v46).slice (win5_2.rect t)).set ↔ _
  rw [View.set_slice_whole, Rect.mem_set_unit]
  exact Iff.rfl

/-- THE OUTPUT ARRAY after the call is max(a + r, 0). -/
theorem out_array (c : Dev nD) :
    (dat5 V c).arrAt 2 cfg5.N = addRelu (V c main_v45) (V c main_v34_1) :=
  (dat5 V c).arrAt_eq_of_cover 2 _ (fun t _ => flushed_block V c t) (fun i => by
    have hi0 : (i 0).val < 50000 := (i 0).isLt
    have hi1 : (i 1).val < 128 := (i 1).isLt
    let t : Fin cfg5.N := ⟨(i 0).val / 5000, by rw [show cfg5.N = 10 from N_5]; omega⟩
    have ht : t.val = (i 0).val / 5000 := rfl
    obtain ⟨e0, e1, e2, e3, e4, e5⟩ := index_maps t
    refine ⟨t, flush5_2 t, ?_⟩
    rw [mem_block]
    intro a
    match a with
    | ⟨0, _⟩ => show win5_2.index t (0 : Fin 2) * 5000 ≤ (i 0).val ∧ (i 0).val < win5_2.index t (0 : Fin 2) * 5000 + 5000; omega
    | ⟨1, _⟩ => show win5_2.index t (1 : Fin 2) * 128 ≤ (i 1).val ∧ (i 1).val < win5_2.index t (1 : Fin 2) * 128 + 128; omega)

end Cert.KernelIdeal.Relu5

end
-- ==== Proof.KernelChain.lean ====
/-
  The idealized kernel program's two results as functions of its arguments.

  The contents of the program's buffers at its boundaries are followed layer by layer.  A layer is a dense call (which
  leaves X·Wrel and X·Wroot + b), a host stretch (which gathers the source rows of X·Wrel and adds each into its target
  row of a table of zeros: the edge aggregate) and an add-and-rectify call (which leaves the larger of the aggregate
  plus X·Wroot + b and zero).  Together that is one layer in the multiply-first arrangement, applied to the previous
  layer's output with that layer's weights; the edge-index rows, computed once from the second argument, are the same in
  all three layers.  After the third layer the last stretch pools the node rows by graph and divides by the clamped
  counts.  The column shares are computed by the first stretch from the first argument and are not touched again.
-/
import proofs.«174086_j18305150615818_2_alg».proof.Proof.Gen.KernelIdeal.Frame
import Idealize.ShloMosaic.Lib.StableHlo.Run
import Idealize.ShloMosaic.PureOps.Ideal.Laws
import proofs.«174086_j18305150615818_2_alg».proof.Proof.GraphConvNet
import proofs.«174086_j18305150615818_2_alg».proof.Proof.KernelKeep
import proofs.«174086_j18305150615818_2_alg».proof.Proof.Dense0
import proofs.«174086_j18305150615818_2_alg».proof.Proof.Dense2
import proofs.«174086_j18305150615818_2_alg».proof.Proof.Dense4
import proofs.«174086_j18305150615818_2_alg».proof.Proof.Relu1
import proofs.«174086_j18305150615818_2_alg».proof.Proof.Relu3
import proofs.«174086_j18305150615818_2_alg».proof.Proof.Relu5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Cert.GraphConv

variable (m : (ℓ : Loc nD τ sig) → Buf (Elt Ideal) ℓ) (ρ : Dev nD → PrngReg) (c : Dev nD)

/-! ## The host operations' names -/

/-- Row r of the 2×E edge-index argument, as a vector of E row numbers. -/
def edgeRow0 (e : IVec S2x800000 32) : IVec S800000 32 :=
  shapeCast S800000 (extractStridedSlice S1x800000 ![0, 0] e slices_S2x800000_S1x800000_0_0) shapeCasts_S1x800000_S800000
def edgeRow1 (e : IVec S2x800000 32) : IVec S800000 32 :=
  shapeCast S800000 (extractStridedSlice S1x800000 ![1, 0] e slices_S2x800000_S1x800000_1_0) shapeCasts_S1x800000_S800000

/-- Row numbers as the gather takes them: a negative number counted from the end, one column. -/
def srcOf (v : IVec S800000 32) : IVec S800000x1 32 :=
  broadcastInDim S800000x1 ![0] bcast_S800000_S800000x1_0
    (select (cmpi CmpIPredicate.slt v (broadcastInDim S800000 ![] bcast_S_S800000 (constantI S_ 32 0#32)))
      (addi v (broadcastInDim S800000 ![] bcast_S_S800000 (constantI S_ 32 50000#32))) v)

/-- Row numbers as the scatter takes them: one column. -/
def dstOf (v : IVec S800000 32) : IVec S800000x1 32 :=
  broadcastInDim S800000x1 ![0] bcast_S800000_S800000x1_0 v

/-- The source row numbers of the edges. -/
def srcIdx (e : IVec S2x800000 32) : IVec S800000x1 32 := srcOf (edgeRow0 e)

/-- The target row numbers of the edges. -/
def dstIdx (e : IVec S2x800000 32) : IVec S800000x1 32 := dstOf (edgeRow1 e)

/-- A gather-and-scatter stretch as the program spells it: the rows of x gathered at the first row-number vector,
    widened, and added into zeros at the second. -/
def aggHost (x : FVec Ideal S50000x128 .bf16) (v1 v3 : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstOf v3)
    (extf .f32 (Host.gather gather_S50000x128_S800000x1_S800000x128_1_0_n_n_0_1_1128 x (srcOf v1)) bitsLt_bf16_f32)

/-- The mean pooling: node rows added by graph, divided by the number of nodes of the graph, at least one. -/
def pool (g : IVec S50000 32) (h : FVec Ideal S50000x128 .bf16) : FVec Ideal S64x128 .f32 :=
  Host.divf (F := Ideal)
    (Host.scatterAdd (F := Ideal) scatter_S64x128_S50000x1_S50000x128_1_0_0_1
      (broadcastInDim S64x128 ![] bcast_S_S64x128 (constant (F := Ideal) S_ .f32 0x00000000#32))
      (broadcastInDim S50000x1 ![0] bcast_S50000_S50000x1_0 g) (extf .f32 h bitsLt_bf16_f32))
    (broadcastInDim S64x128 ![0, 1] bcast_S64x1_S64x128_0_1
      (maximumf
        (Host.scatterAdd (F := Ideal) scatter_S64x1_S50000x1_S50000x1_1_0_0_1
          (broadcastInDim S64x1 ![] bcast_S_S64x1 (constant (F := Ideal) S_ .f32 0x00000000#32))
          (broadcastInDim S50000x1 ![0] bcast_S50000_S50000x1_0 g)
          (broadcastInDim S50000x1 ![] bcast_S_S50000x1 (constant (F := Ideal) S_ .f32 0x3F800000#32)))
        (broadcastInDim S64x1 ![] bcast_S_S64x1 (constant (F := Ideal) S_ .f32 0x3F800000#32))))

/-- The column sums of the features, each divided by their total. -/
def colShare (x : FVec Ideal S50000x128 .f32) : FVec Ideal S128 .f32 :=
  Host.divf (F := Ideal) (Host.reduceAdd (F := Ideal) x (constant (F := Ideal) S_ .f32 0x00000000#32) reducesTo_S50000x128_S128_d0 h_S_)
    (broadcastInDim S128 ![] bcast_S_S128
      (Host.reduceAdd (F := Ideal) (Host.reduceAdd (F := Ideal) x (constant (F := Ideal) S_ .f32 0x00000000#32) reducesTo_S50000x128_S128_d0 h_S_)
        (constant (F := Ideal) S_ .f32 0x00000000#32) reducesTo_S128_S_d0 h_S_))

/-- The gather of source rows, widened, and the accumulating scatter into zeros, as the host stretch spells them, are
    the edge aggregate. -/
theorem agg_of_host (x : FVec Ideal S50000x128 .bf16) (si di : IVec S800000x1 32) :
    Host.scatterAdd (F := Ideal) scatter_S50000x128_S800000x1_S800000x128_1_0_0_1
      (broadcastInDim S50000x128 ![] bcast_S_S50000x128 (constant (F := Ideal) S_ .f32 0x00000000#32)) di
      (extf .f32 (Host.gather gather_S50000x128_S800000x1_S800000x128_1_0_n_n_0_1_1128 x si) bitsLt_bf16_f32)
    = agg (N := 50000) (E := 800000) (C := 128) gather_S50000x128_S800000x1_S800000x128_1_0_n_n_0_1_1128_wf
        scatter_S50000x128_S800000x1_S800000x128_1_0_0_1_wf x si di := by
  unfold agg
  show Ideal.hostScatterAdd _ (fun _ => Ideal.ofBits .f32 0x00000000#32) di _ = _
  rw [Ideal.ofBits_zero_f32]
  rfl

/-! ## The first stretch: the edge-index rows -/

theorem row0_at1 : W1 m ρ c (Proc.devRef .tc main_v1) = edgeRow0 (m ((c : Thread nD τ).loc main_arg1)) := by
  show StableHlo.after hostOps0 (W0 m ρ c) (Proc.devRef .tc main_v1) = _
  after_results
  rfl

theorem row1_at1 : W1 m ρ c (Proc.devRef .tc main_v3) = edgeRow1 (m ((c : Thread nD τ).loc main_arg1)) := by
  show StableHlo.after hostOps0 (W0 m ρ c) (Proc.devRef .tc main_v3) = _
  after_results
  rfl

theorem shares_at1 : W1 m ρ c (Proc.devRef .tc main_v7) = colShare (m ((c : Thread nD τ).loc main_arg0)) := by
  show StableHlo.after hostOps0 (W0 m ρ c) (Proc.devRef .tc main_v7) = _
  after_results
  rfl

/-! ## The three layers' outputs, as functions of the arguments -/

/-- The first layer's output. -/
def out1 : S50000x128.Idx → EReal :=
  kLayer (N := 50000) (E := 800000) (C := 128) gather_S50000x128_S800000x1_S800000x128_1_0_n_n_0_1_1128_wf
    scatter_S50000x128_S800000x1_S800000x128_1_0_0_1_wf (m ((c : Thread nD τ).loc main_arg0)) (srcIdx (m ((c : Thread nD τ).loc main_arg1))) (dstIdx (m ((c : Thread nD τ).loc main_arg1))) (m ((c : Thread nD τ).loc main_arg3)) (m ((c : Thread nD τ).loc main_arg4)) (m ((c : Thread nD τ).loc main_arg5))
/-- The second layer's output. -/
def out2 : S50000x128.Idx → EReal :=
  kLayer (N := 50000) (E := 800000) (C := 128) gather_S50000x128_S800000x1_S800000x128_1_0_n_n_0_1_1128_wf
    scatter_S50000x128_S800000x1_S800000x128_1_0_0_1_wf (out1 m c) (srcIdx (m ((c : Thread nD τ).loc main_arg1))) (dstIdx (m ((c : Thread nD τ).loc main_arg1))) (m ((c : Thread nD τ).loc main_arg6)) (m ((c : Thread nD τ).loc main_arg7)) (m ((c : Thread nD τ).loc main_arg8))
/-- The third layer's output. -/
def out3 : S50000x128.Idx → EReal :=
  kLayer (N := 50000) (E := 800000) (C := 128) gather_S50000x128_S800000x1_S800000x128_1_0_n_n_0_1_1128_wf
    scatter_S50000x128_S800000x1_S800000x128_1_0_0_1_wf (out2 m c) (srcIdx (m ((c : Thread nD τ).loc main_arg1))) (dstIdx (m ((c : Thread nD τ).loc main_arg1))) (m ((c : Thread nD τ).loc main_arg9)) (m ((c : Thread nD τ).loc main_arg10)) (m ((c : Thread nD τ).loc main_arg11))

/-! ## Layer 1 -/

/-- The dense call leaves X·Wrel in its first output. -/
theorem product1 : W2 m ρ c (Proc.devRef .tc main_v8_0)
    = mm (N := 50000) (C := 128) (m ((c : Thread nD τ).loc main_arg0)) (m ((c : Thread nD τ).loc main_arg3)) := by
  refine (W2_arr m ρ c 4).trans ((Dense0.first_array (V1 m ρ) c).trans ?_)
  show mm (N := 50000) (C := 128) (W1 m ρ c (Proc.devRef .tc main_arg0)) (W1 m ρ c (Proc.devRef .tc main_arg3)) = _
  rw [Keep.arg0_at1 m ρ c, Keep.arg3_at1 m ρ c]

/-- The dense call leaves X·Wroot + b in its second output. -/
theorem affine1 : W2 m ρ c (Proc.devRef .tc main_v8_1)
    = affine (N := 50000) (C := 128) (m ((c : Thread nD τ).loc main_arg0)) (m ((c : Thread nD τ).loc main_arg4)) (m ((c : Thread nD τ).loc main_arg5)) := by
  refine (W2_arr m ρ c 5).trans ((Dense0.second_array (V1 m ρ) c).trans ?_)
  show affine (N := 50000) (C := 128) (W1 m ρ c (Proc.devRef .tc main_arg0)) (W1 m ρ c (Proc.devRef .tc main_arg4))
    (W1 m ρ c (Proc.devRef .tc main_arg5)) = _
  rw [Keep.arg0_at1 m ρ c, Keep.arg4_at1 m ρ c, Keep.arg5_at1 m ρ c]

set_option maxHeartbeats 2000000 in
/-- The host stretch, as spelt: a gather at the first edge-index row, widened, added into zeros at the second. -/
theorem stretch1 : W3 m ρ c (Proc.devRef .tc main_v19)
    = aggHost (W2 m ρ c (Proc.devRef .tc main_v8_0)) (W2 m ρ c (Proc.devRef .tc main_v1)) (W2 m ρ c (Proc.devRef .tc main_v3)) := by
  show StableHlo.after hostOps1 (W2 m ρ c) (Proc.devRef .tc main_v19) = _
  after_results
  rfl

set_option maxHeartbeats 2000000 in
/-- The host stretch leaves the edge aggregate of X·Wrel. -/
theorem aggregate1 : W3 m ρ c (Proc.devRef .tc main_v19)
    = agg (N := 50000) (E := 800000) (C := 128) gather_S50000x128_S800000x1_S800000x128_1_0_n_n_0_1_1128_wf
        scatter_S50000x128_S800000x1_S800000x128_1_0_0_1_wf
        (mm (N := 50000) (C := 128) (m ((c : Thread nD τ).loc main_arg0)) (m ((c : Thread nD τ).loc main_arg3)))
        (srcIdx (m ((c : Thread nD τ).loc main_arg1))) (dstIdx (m ((c : Thread nD τ).loc main_arg1))) := by
  rw [stretch1 m ρ c, Keep.v1_at2 m ρ c, Keep.v3_at2 m ρ c, row0_at1 m ρ c, row1_at1 m ρ c, product1 m ρ c]
  exact agg_of_host _ _ _

/-- The add-and-rectify call leaves the layer's output. -/
theorem layer1 : W4 m ρ c (Proc.devRef .tc main_v20) = out1 m c := by
  refine (W4_arr m ρ c 2).trans ((Relu1.out_array (V3 m ρ) c).trans ?_)
  show addRelu (W3 m ρ c (Proc.devRef .tc main_v19)) (W3 m ρ c (Proc.devRef .tc main_v8_1)) = _
  rw [aggregate1 m ρ c, Keep.v8_1_at3 m ρ c, affine1 m ρ c]
  rfl

/-! ## Layer 2 -/

/-- The dense call leaves X·Wrel in its first output. -/
theorem product2 : W5 m ρ c (Proc.devRef .tc main_v21_0)
    = mm (N := 50000) (C := 128) (out1 m c) (m ((c : Thread nD τ).loc main_arg6)) := by
  refine (W5_arr m ρ c 4).trans ((Dense2.first_array (V4 m ρ) c).trans ?_)
  show mm (N := 50000) (C := 128) (W4 m ρ c (Proc.devRef .tc main_v20)) (W4 m ρ c (Proc.devRef .tc main_arg6)) = _
  rw [layer1 m ρ c, Keep.arg6_at4 m ρ c]

/-- The dense call leaves X·Wroot + b in its second output. -/
theorem affine2 : W5 m ρ c (Proc.devRef .tc main_v21_1)
    = affine (N := 50000) (C := 128) (out1 m c) (m ((c : Thread nD τ).loc main_arg7)) (m ((c : Thread nD τ).loc main_arg8)) := by
  refine (W5_arr m ρ c 5).trans ((Dense2.second_array (V4 m ρ) c).trans ?_)
  show affine (N := 50000) (C := 128) (W4 m ρ c (Proc.devRef .tc main_v20)) (W4 m ρ c (Proc.devRef .tc main_arg7))
    (W4 m ρ c (Proc.devRef .tc main_arg8)) = _
  rw [layer1 m ρ c, Keep.arg7_at4 m ρ c, Keep.arg8_at4 m ρ c]

set_option maxHeartbeats 2000000 in
/-- The host stretch, as spelt: a gather at the first edge-index row, widened, added into zeros at the second. -/
theorem stretch2 : W6 m ρ c (Proc.devRef .tc main_v32)
    = aggHost (W5 m ρ c (Proc.devRef .tc main_v21_0)) (W5 m ρ c (Proc.devRef .tc main_v1)) (W5 m ρ c (Proc.devRef .tc main_v3)) := by
  show StableHlo.after hostOps3 (W5 m ρ c) (Proc.devRef .tc main_v32) = _
  after_results
  rfl

set_option maxHeartbeats 2000000 in
/-- The host stretch leaves the edge aggregate of X·Wrel. -/
theorem aggregate2 : W6 m ρ c (Proc.devRef .tc main_v32)
    = agg (N := 50000) (E := 800000) (C := 128) gather_S50000x128_S800000x1_S800000x128_1_0_n_n_0_1_1128_wf
        scatter_S50000x128_S800000x1_S800000x128_1_0_0_1_wf
        (mm (N := 50000) (C := 128) (out1 m c) (m ((c : Thread nD τ).loc main_arg6)))
        (srcIdx (m ((c : Thread nD τ).loc main_arg1))) (dstIdx (m ((c : Thread nD τ).loc main_arg1))) := by
  rw [stretch2 m ρ c, Keep.v1_at5 m ρ c, Keep.v3_at5 m ρ c, row0_at1 m ρ c, row1_at1 m ρ c, product2 m ρ c]
  exact agg_of_host _ _ _

/-- The add-and-rectify call leaves the layer's output. -/
theorem layer2 : W7 m ρ c (Proc.devRef .tc main_v33) = out2 m c := by
  refine (W7_arr m ρ c 2).trans ((Relu3.out_array (V6 m ρ) c).trans ?_)
  show addRelu (W6 m ρ c (Proc.devRef .tc main_v32)) (W6 m ρ c (Proc.devRef .tc main_v21_1)) = _
  rw [aggregate2 m ρ c, Keep.v21_1_at6 m ρ c, affine2 m ρ c]
  rfl

/-! ## Layer 3 -/

/-- The dense call leaves X·Wrel in its first output. -/
theorem product3 : W8 m ρ c (Proc.devRef .tc main_v34_0)
    = mm (N := 50000) (C := 128) (out2 m c) (m ((c : Thread nD τ).loc main_arg9)) := by
  refine (W8_arr m ρ c 4).trans ((Dense4.first_array (V7 m ρ) c).trans ?_)
  show mm (N := 50000) (C := 128) (W7 m ρ c (Proc.devRef .tc main_v33)) (W7 m ρ c (Proc.devRef .tc main_arg9)) = _
  rw [layer2 m ρ c, Keep.arg9_at7 m ρ c]

/-- The dense call leaves X·Wroot + b in its second output. -/
theorem affine3 : W8 m ρ c (Proc.devRef .tc main_v34_1)
    = affine (N := 50000) (C := 128) (out2 m c) (m ((c : Thread nD τ).loc main_arg10)) (m ((c : Thread nD τ).loc main_arg11)) := by
  refine (W8_arr m ρ c 5).trans ((Dense4.second_array (V7 m ρ) c).trans ?_)
  show affine (N := 50000) (C := 128) (W7 m ρ c (Proc.devRef .tc main_v33)) (W7 m ρ c (Proc.devRef .tc main_arg10))
    (W7 m ρ c (Proc.devRef .tc main_arg11)) = _
  rw [layer2 m ρ c, Keep.arg10_at7 m ρ c, Keep.arg11_at7 m ρ c]

set_option maxHeartbeats 2000000 in
/-- The host stretch, as spelt: a gather at the first edge-index row, widened, added into zeros at the second. -/
theorem stretch3 : W9 m ρ c (Proc.devRef .tc main_v45)
    = aggHost (W8 m ρ c (Proc.devRef .tc main_v34_0)) (W8 m ρ c (Proc.devRef .tc main_v1)) (W8 m ρ c (Proc.devRef .tc main_v3)) := by
  show StableHlo.after hostOps5 (W8 m ρ c) (Proc.devRef .tc main_v45) = _
  after_results
  rfl

set_option maxHeartbeats 2000000 in
/-- The host stretch leaves the edge aggregate of X·Wrel. -/
theorem aggregate3 : W9 m ρ c (Proc.devRef .tc main_v45)
    = agg (N := 50000) (E := 800000) (C := 128) gather_S50000x128_S800000x1_S800000x128_1_0_n_n_0_1_1128_wf
        scatter_S50000x128_S800000x1_S800000x128_1_0_0_1_wf
        (mm (N := 50000) (C := 128) (out2 m c) (m ((c : Thread nD τ).loc main_arg9)))
        (srcIdx (m ((c : Thread nD τ).loc main_arg1))) (dstIdx (m ((c : Thread nD τ).loc main_arg1))) := by
  rw [stretch3 m ρ c, Keep.v1_at8 m ρ c, Keep.v3_at8 m ρ c, row0_at1 m ρ c, row1_at1 m ρ c, product3 m ρ c]
  exact agg_of_host _ _ _

/-- The add-and-rectify call leaves the layer's output. -/
theorem layer3 : W10 m ρ c (Proc.devRef .tc main_v46) = out3 m c := by
  refine (W10_arr m ρ c 2).trans ((Relu5.out_array (V9 m ρ) c).trans ?_)
  show addRelu (W9 m ρ c (Proc.devRef .tc main_v45)) (W9 m ρ c (Proc.devRef .tc main_v34_1)) = _
  rw [aggregate3 m ρ c, Keep.v34_1_at9 m ρ c, affine3 m ρ c]
  rfl

/-! ## The results -/

set_option maxHeartbeats 4000000 in
/-- The pooled result: the third layer's output pooled by graph. -/
theorem pooled : W11 m ρ c (Proc.devRef .tc main_v58) = pool (m ((c : Thread nD τ).loc main_arg2)) (out3 m c) := by
  show StableHlo.after hostOps6 (W10 m ρ c) (Proc.devRef .tc main_v58) = _
  after_results_simp
  rw [layer3 m ρ c, Keep.arg2_at10 m ρ c]
  rfl

/-- The column shares are as the first stretch computed them. -/
theorem shares : W11 m ρ c (Proc.devRef .tc main_v7) = colShare (m ((c : Thread nD τ).loc main_arg0)) :=
  (Keep.v7_at11 m ρ c).trans (shares_at1 m ρ c)

/-- The third layer's output is the three-layer network in the multiply-first arrangement. -/
theorem out3_eq : out3 m c = kNet (N := 50000) (E := 800000) (C := 128) gather_S50000x128_S800000x1_S800000x128_1_0_n_n_0_1_1128_wf
    scatter_S50000x128_S800000x1_S800000x128_1_0_0_1_wf (m ((c : Thread nD τ).loc main_arg0)) (srcIdx (m ((c : Thread nD τ).loc main_arg1))) (dstIdx (m ((c : Thread nD τ).loc main_arg1)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

end Cert.KernelIdeal.Chain

end
-- ==== Proof.RefValue.lean ====
/-
  The reference program's two results as functions of its arguments.

  The reference's run states each result as the composed term of its host operations.  In that term a layer is spelt
  max( (dot(scatter-add(zeros, targets, gather(h, sources)), Wrel) + dot(h, Wroot)) + broadcast(b), zeros ): entry (p, q)
  of a host product is ∑ k of row p times column q, the scatter-add of gathered rows into zeros is the edge aggregate,
  the twice-broadcast bias row reads b(q) and the zero constant is the number zero — so the spelling is one layer in the
  aggregate-first arrangement.  Folding that three times leaves the three-layer network under the mean pooling.
-/
import proofs.«174086_j18305150615818_2_alg».proof.Proof.Gen.ReferenceIdeal.Run
import Idealize.ShloMosaic.PureOps.Ideal.Laws
import Idealize.ShloMosaic.Lib.Pipeline.Value
import proofs.«174086_j18305150615818_2_alg».proof.Proof.GraphConvNet
import proofs.«174086_j18305150615818_2_alg».proof.Proof.LibDenseEntry

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.GraphConv

/-! ## The host operations' names -/

def edgeRow0 (e : IVec S2x800000 32) : IVec S800000 32 :=
  shapeCast S800000 (extractStridedSlice S1x800000 ![0, 0] e slices_S2x800000_S1x800000_0_0) shapeCasts_S1x800000_S800000
def edgeRow1 (e : IVec S2x800000 32) : IVec S800000 32 :=
  shapeCast S800000 (extractStridedSlice S1x800000 ![1, 0] e slices_S2x800000_S1x800000_1_0) shapeCasts_S1x800000_S800000

/-- The source row numbers as the gather takes them: a negative number counted from the end, one column. -/
def srcIdx (e : IVec S2x800000 32) : IVec S800000x1 32 :=
  broadcastInDim S800000x1 ![0] bcast_S800000_S800000x1_0
    (select (cmpi CmpIPredicate.slt (edgeRow0 e) (broadcastInDim S800000 ![] bcast_S_S800000 (constantI S_ 32 0#32)))
      (addi (edgeRow0 e) (broadcastInDim S800000 ![] bcast_S_S800000 (constantI S_ 32 50000#32))) (edgeRow0 e))

/-- The target row numbers as the scatter takes them: one column. -/
def dstIdx (e : IVec S2x800000 32) : IVec S800000x1 32 :=
  broadcastInDim S800000x1 ![0] bcast_S800000_S800000x1_0 (edgeRow1 e)

/-- The mean pooling: node rows added by graph, divided by the number of nodes of the graph, at least one. -/
def pool (g : IVec S50000 32) (h : FVec Ideal S50000x128 .f32) : FVec Ideal S64x128 .f32 :=
  Host.divf (F := Ideal)
    (Host.scatterAdd (F := Ideal) scatter_S64x128_S50000x1_S50000x128_1_0_0_1
      (broadcastInDim S64x128 ![] bcast_S_S64x128 (constant (F := Ideal) S_ .f32 0x00000000#32))
      (broadcastInDim S50000x1 ![0] bcast_S50000_S50000x1_0 g) h)
    (broadcastInDim S64x128 ![0, 1] bcast_S64x1_S64x128_0_1
      (maximumf
        (Host.scatterAdd (F := Ideal) scatter_S64x1_S50000x1_S50000x1_1_0_0_1
          (broadcastInDim S64x1 ![] bcast_S_S64x1 (constant (F := Ideal) S_ .f32 0x00000000#32))
          (broadcastInDim S50000x1 ![0] bcast_S50000_S50000x1_0 g)
          (broadcastInDim S50000x1 ![] bcast_S_S50000x1 (constant (F := Ideal) S_ .f32 0x3F800000#32)))
        (broadcastInDim S64x1 ![] bcast_S_S64x1 (constant (F := Ideal) S_ .f32 0x3F800000#32))))

/-- The column sums of the features, each divided by their total. -/
def colShare (x : FVec Ideal S50000x128 .f32) : FVec Ideal S128 .f32 :=
  Host.divf (F := Ideal) (Host.reduceAdd (F := Ideal) x (constant (F := Ideal) S_ .f32 0x00000000#32) reducesTo_S50000x128_S128_d0 h_S_)
    (broadcastInDim S128 ![] bcast_S_S128
      (Host.reduceAdd (F := Ideal) (Host.reduceAdd (F := Ideal) x (constant (F := Ideal) S_ .f32 0x00000000#32) reducesTo_S50000x128_S128_d0 h_S_)
        (constant (F := Ideal) S_ .f32 0x00000000#32) reducesTo_S128_S_d0 h_S_))

/-! ## One layer as the host operations spell it -/

/-- The gather of source rows and the accumulating scatter into zeros are the edge aggregate. -/
theorem agg_of_host (x : FVec Ideal S50000x128 .f32) (si di : IVec S800000x1 32) :
    Host.scatterAdd (F := Ideal) scatter_S50000x128_S800000x1_S800000x128_1_0_0_1
      (broadcastInDim S50000x128 ![] bcast_S_S50000x128 (constant (F := Ideal) S_ .f32 0x00000000#32)) di
      (Host.gather gather_S50000x128_S800000x1_S800000x128_1_0_n_n_0_1_1128 x si)
    = agg (N := 50000) (E := 800000) (C := 128) gather_S50000x128_S800000x1_S800000x128_1_0_n_n_0_1_1128_wf
        scatter_S50000x128_S800000x1_S800000x128_1_0_0_1_wf x si di := by
  unfold agg
  show Ideal.hostScatterAdd _ (fun _ => Ideal.ofBits .f32 0x00000000#32) di _ = _
  rw [Ideal.ofBits_zero_f32]
  rfl

/-- The host's product of a 50000×128 array with a 128×128 matrix is the matrix product entry by entry. -/
theorem dot_of_host (l : FVec Ideal S50000x128 .f32) (r : FVec Ideal S128x128 .f32) :
    Host.dotGeneral (F := Ideal) dot_S50000x128_S128x128_S50000x128_1_0_0_1_n_n none l r = mm (N := 50000) (C := 128) l r := by
  funext i
  obtain ⟨p, q, rfl⟩ : ∃ (p : Fin 50000) (q : Fin 128), i = ix2 p q := ⟨i 0, i 1, eq_ix2 i⟩
  simp only [Host.dotGeneral]
  exact Cert.LibDenseEntry.dotGeneral_plain_apply _ rfl rfl rfl rfl rfl rfl none _ l r p q

/-- The bias row broadcast to one row and then to every row reads b(q) at (p, q). -/
theorem bias_of_host (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The zero constant broadcast to every entry is the number zero. -/
theorem zeros_of_host (i : S50000x128.Idx) :
    broadcastInDim S50000x128 ![] bcast_S_S50000x128 (constant (F := Ideal) S_ .f32 0x00000000#32) i = 0 :=
  (broadcastInDim_apply _ bcast_S_S50000x128 _ i ix0 (fun a => a.elim0)).trans Ideal.ofBits_zero_f32

/-- ONE LAYER as the reference's host operations spell it is the layer in the aggregate-first arrangement. -/
theorem layer_of_host (h : FVec Ideal S50000x128 .f32) (si di : IVec S800000x1 32) (w v : FVec Ideal S128x128 .f32)
    (b : FVec Ideal S128 .f32) :
    maximumf
      (addf
        (addf
          (Host.dotGeneral (F := Ideal) dot_S50000x128_S128x128_S50000x128_1_0_0_1_n_n none
            (Host.scatterAdd (F := Ideal) scatter_S50000x128_S800000x1_S800000x128_1_0_0_1
              (broadcastInDim S50000x128 ![] bcast_S_S50000x128 (constant (F := Ideal) S_ .f32 0x00000000#32)) di
              (Host.gather gather_S50000x128_S800000x1_S800000x128_1_0_n_n_0_1_1128 h si)) w)
          (Host.dotGeneral (F := Ideal) dot_S50000x128_S128x128_S50000x128_1_0_0_1_n_n none h v))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = rLayer (N := 50000) (E := 800000) (C := 128) gather_S50000x128_S800000x1_S800000x128_1_0_n_n_0_1_1128_wf
        scatter_S50000x128_S800000x1_S800000x128_1_0_0_1_wf h si di w v b := by
  rw [agg_of_host, dot_of_host, dot_of_host]
  funext i
  obtain ⟨p, q, rfl⟩ : ∃ (p : Fin 50000) (q : Fin 128), i = ix2 p q := ⟨i 0, i 1, eq_ix2 i⟩
  unfold rLayer
  refine (maximumf_apply _ _ _).trans ?_
  refine congrArg₂ max ?_ (zeros_of_host _)
  refine (addf_apply _ _ _).trans ?_
  refine congrArg₂ (· + ·) (addf_apply _ _ _) (bias_of_host b p q)

/-! ## The results -/

variable (m : (ℓ : Loc nD τ sig) → Buf (Elt Ideal) ℓ) (c : Dev nD)

/-- The run's composed term for the pooled result is the pooling of the three-layer network in the aggregate-first
    arrangement: its outermost layer spelling folds first, then the one inside it, then the innermost. -/
theorem pooled : Cert.ReferenceIdeal.Value.res_main_v69 (F := Ideal) m c
    = pool (m ((c.tc : Thread nD τ).loc main_arg2))
        (rNet (N := 50000) (E := 800000) (C := 128) gather_S50000x128_S800000x1_S800000x128_1_0_n_n_0_1_1128_wf
          scatter_S50000x128_S800000x1_S800000x128_1_0_0_1_wf (m ((c.tc : Thread nD τ).loc main_arg0)) (srcIdx (m ((c.tc : Thread nD τ).loc main_arg1))) (dstIdx (m ((c.tc : Thread nD τ).loc main_arg1)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  unfold Cert.ReferenceIdeal.Value.res_main_v69
  rw [layer_of_host, layer_of_host, layer_of_host]
  rfl

end Cert.ReferenceIdeal.RefValue

end
-- ==== Proof.PreDecode.lean ====
/-
  The precondition read as "every float argument is an array of real numbers".

  The precondition is one bit: the conjunction, over the ten float arguments, of "every entry's absolute value is
  below +∞".  A conjunction of bits is 1 only if each is; a reduction by "and" over all of an array is 1 only if every
  entry's bit is; and an extended real whose absolute value max(x, −x) is below +∞ is neither infinity, hence a real
  number.
-/
import proofs.«174086_j18305150615818_2_alg».proof.Pre_finite_inputs
import proofs.«174086_j18305150615818_2_alg».proof.Proof.Gen.Pre_finite_inputs
import Idealize.ShloMosaic.PureOps.Ideal
import Idealize.ShloMosaic.Lib.ReduceAll
import Idealize.ShloMosaic.Lib.Affine
import Idealize.ShloMosaic.Lib.ValueIdx
import proofs.«174086_j18305150615818_2_alg».proof.Proof.GraphConvLaw

noncomputable section

namespace Cert.Pre_finite_inputs.Decode

open Cert.Pre_finite_inputs Idealize.ShloMosaic Idealize.ShloMosaic.ValueIdx Cert.GraphConv

instance : Subsingleton (⟨0, ![]⟩ : Shape).Idx := ⟨fun a b => funext fun d => d.elim0⟩

/-- An extended real whose absolute value is below +∞ (the word 0x7F800000) is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have h' : max x (-x) < (⊤ : EReal) := by
    by_contra hn
    have h2 : BitVec.ofBool (decide (max x (-x) < (⊤ : EReal))) = 1#1 := h
    rw [decide_eq_false hn] at h2
    exact absurd h2 (by decide)
  induction x using EReal.rec with
  | bot => exact absurd h' (by simp)
  | top => exact absurd h' (by simp)
  | coe r => exact ⟨r, rfl⟩

/-- "All entries finite" of one array gives its real-valuedness. -/
theorem isReal_of_all {s : Shape} {axes : List (Fin s.rank)} (a : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hu ix0 = 1#1) : IsReal a := fun i =>
  real_of_abs_lt_inf (a i) (Host.reduce_andi_all _ _ hr hu ix0 e i)

/-- The precondition gives the real-valuedness of each of the ten float arguments. -/
theorem reals (a0 : FVec Ideal S50000x128 .f32) (a1 : IVec S2x800000 32) (a2 : IVec S50000 32)
    (a3 a4 : FVec Ideal S128x128 .f32) (a5 : FVec Ideal S128 .f32) (a6 a7 : FVec Ideal S128x128 .f32)
    (a8 : FVec Ideal S128 .f32) (a9 a10 : FVec Ideal S128x128 .f32) (a11 : FVec Ideal S128 .f32)
    (h : fn (F := Ideal) a0 a1 a2 a3 a4 a5 a6 a7 a8 a9 a10 a11 = fun _ => 1#1) :
    IsReal a0 ∧ IsReal a3 ∧ IsReal a4 ∧ IsReal a5 ∧ IsReal a6 ∧ IsReal a7 ∧ IsReal a8 ∧ IsReal a9 ∧ IsReal a10
      ∧ IsReal a11 := by
  have h0 := congrFun h ix0
  dsimp only [fn, fn_part1, fn_part2] at h0
  obtain ⟨h9, e11⟩ := IntOp.andi_eq_one.1 h0
  obtain ⟨h8, e10⟩ := IntOp.andi_eq_one.1 h9
  obtain ⟨h7, e9⟩ := IntOp.andi_eq_one.1 h8
  obtain ⟨h6, e8⟩ := IntOp.andi_eq_one.1 h7
  obtain ⟨h5, e7⟩ := IntOp.andi_eq_one.1 h6
  obtain ⟨h4, e6⟩ := IntOp.andi_eq_one.1 h5
  obtain ⟨h3, e5⟩ := IntOp.andi_eq_one.1 h4
  obtain ⟨h2, e4⟩ := IntOp.andi_eq_one.1 h3
  obtain ⟨e0, e3⟩ := IntOp.andi_eq_one.1 h2
  exact ⟨isReal_of_all a0 _ _ _ e0, isReal_of_all a3 _ _ _ e3, isReal_of_all a4 _ _ _ e4, isReal_of_all a5 _ _ _ e5,
    isReal_of_all a6 _ _ _ e6, isReal_of_all a7 _ _ _ e7, isReal_of_all a8 _ _ _ e8, isReal_of_all a9 _ _ _ e9,
    isReal_of_all a10 _ _ _ e10, isReal_of_all a11 _ _ _ e11⟩

end Cert.Pre_finite_inputs.Decode

end
-- ==== Proof.lean ====
/-
  The certificate: a three-layer graph convolution with mean pooling, computed by six pallas_calls among host
  gathers and scatters, against the plain jnp reference.

  Per layer the kernel multiplies the node features by the neighbour weights BEFORE the edge gather and the
  accumulating scatter, where the reference aggregates first and multiplies after.  Over the extended reals the two
  are the same double sum in two orders, provided the features and the neighbour weights are real numbers: that is
  where the precondition (every float input finite) is used, once per layer, the real-valuedness of a layer's output
  carrying it to the next.  The summands' regrouping, the changes of float format and the tiling into ten blocks of
  5000 rows need nothing.  After the third layer both programs pool the same way, and the column shares are the same
  host operations of the first argument in both.

  The three frames are the generated ones (the reference's is its generated run with the results dropped); the ideal
  pass rewrote nothing, so its conjunct is trivial.
-/
import proofs.«174086_j18305150615818_2_alg».proof.Defs
import proofs.«174086_j18305150615818_2_alg».proof.Proof.Gen.Kernel
import proofs.«174086_j18305150615818_2_alg».proof.Proof.Gen.Kernel.Frame
import proofs.«174086_j18305150615818_2_alg».proof.Proof.Gen.KernelIdeal
import proofs.«174086_j18305150615818_2_alg».proof.Proof.Gen.KernelIdeal.Frame
import proofs.«174086_j18305150615818_2_alg».proof.Proof.Gen.ReferenceIdeal
import proofs.«174086_j18305150615818_2_alg».proof.Proof.Gen.ReferenceIdeal.Run
import proofs.«174086_j18305150615818_2_alg».proof.Proof.Gen.Pre_finite_inputs
import proofs.«174086_j18305150615818_2_alg».proof.Proof.KernelRun
import proofs.«174086_j18305150615818_2_alg».proof.Proof.KernelChain
import proofs.«174086_j18305150615818_2_alg».proof.Proof.RefValue
import proofs.«174086_j18305150615818_2_alg».proof.Proof.PreDecode
import proofs.«174086_j18305150615818_2_alg».proof.Proof.GraphConvNet
import Idealize.ShloMosaic.Adequacy
import Idealize.ShloMosaic.Init

set_option maxRecDepth 16384

noncomputable section

namespace Cert.Proof

open Idealize.ShloMosaic Idealize.ShloMosaic.TcCoe Idealize.SL.Sem Cert.GraphConv

/-! ## The two programs' host operations are the same functions -/

theorem srcIdx_eq (e : IVec Cert.KernelIdeal.S2x800000 32) :
    Cert.ReferenceIdeal.RefValue.srcIdx e = Cert.KernelIdeal.Chain.srcIdx e := rfl
theorem dstIdx_eq (e : IVec Cert.KernelIdeal.S2x800000 32) :
    Cert.ReferenceIdeal.RefValue.dstIdx e = Cert.KernelIdeal.Chain.dstIdx e := rfl
/-- The kernel program widens the last layer's output before pooling; at the extended reals that is the identity. -/
theorem pool_eq (g : IVec Cert.KernelIdeal.S50000 32) (h : FVec Ideal Cert.KernelIdeal.S50000x128 .f32) :
    Cert.ReferenceIdeal.RefValue.pool g h = Cert.KernelIdeal.Chain.pool g h := rfl
theorem colShare_eq (x : FVec Ideal Cert.KernelIdeal.S50000x128 .f32) :
    Cert.ReferenceIdeal.RefValue.colShare x = Cert.KernelIdeal.Chain.colShare x := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the pooled three-layer network (one function by the layer law, on real-valued arguments)
    and the column shares of the first argument. -/
theorem algebraic : Cert.algebraic_KernelIdeal_ReferenceIdeal := by
  intro m ρ m' ρ' hpre hagree
  refine ⟨fun c => Cert.KernelIdeal.Chain.pool (m ((c.tc : Thread Cert.KernelIdeal.nD Cert.KernelIdeal.τ).loc Cert.KernelIdeal.main_arg2)) (Cert.KernelIdeal.Chain.out3 m c),
    fun c => Cert.KernelIdeal.Chain.colShare (m ((c.tc : Thread Cert.KernelIdeal.nD Cert.KernelIdeal.τ).loc Cert.KernelIdeal.main_arg0)),
    (θ_run Cert.KernelIdeal.defs _ _).mono (fun r h c =>
      ⟨(h c).1.trans (Cert.KernelIdeal.Chain.pooled m ρ c), (h c).2.1.trans (Cert.KernelIdeal.Chain.shares m ρ c), (h c).2.2⟩)
      (Cert.KernelIdeal.RunValue.run_results m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨hx, hw1, hv1, hb1, hw2, hv2, hb2, hw3, hv3, hb3⟩ := Cert.Pre_finite_inputs.Decode.reals _ _ _ _ _ _ _ _ _ _ _ _ (hpre c)
    obtain ⟨e0, e1, e2, e3, e4, e5, e6, e7, e8, e9, e10, e11⟩ := hagree c
    show Cert.ReferenceIdeal.Value.res_main_v69 m' c
      = Cert.KernelIdeal.Chain.pool (m ((c.tc : Thread Cert.KernelIdeal.nD Cert.KernelIdeal.τ).loc Cert.KernelIdeal.main_arg2)) (Cert.KernelIdeal.Chain.out3 m c)
    rw [Cert.ReferenceIdeal.RefValue.pooled m' c, e0, e1, e2, e3, e4, e5, e6, e7, e8, e9, e10, e11,
      Cert.KernelIdeal.Chain.out3_eq m c,
      kNet_eq_rNet (by decide) _ _ _ _ _ _ _ _ _ _ _ _ _ _ hx hw1 hv1 hb1 hw2 hv2 hb2 hw3,
      pool_eq, srcIdx_eq, dstIdx_eq]
  · obtain ⟨e0, -⟩ := hagree c
    show _ = Cert.KernelIdeal.Chain.colShare (m ((c.tc : Thread Cert.KernelIdeal.nD Cert.KernelIdeal.τ).loc Cert.KernelIdeal.main_arg0))
    rw [e0]
    exact colShare_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
